-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_2)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_0)) (v3 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_2) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_0) = v2 c
          ∧ r.2.mem ((c.tc : Thread Cert.KernelIdeal.nD Cert.KernelIdeal.τ).loc Cert.KernelIdeal.main_v46) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S64x256 : Shape := ⟨2, ![64, 256]⟩
abbrev S8192x64 : Shape := ⟨2, ![8192, 64]⟩
abbrev S8192x128 : Shape := ⟨2, ![8192, 128]⟩
abbrev S8192 : Shape := ⟨1, ![8192]⟩
abbrev S4096 : Shape := ⟨1, ![4096]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S8192x64 : S_.BroadcastsInDim S8192x64 (![] : Fin 0 → Fin S8192x64.rank)
  reducesTo_S8192x64_S_d0_1 : S8192x64.ReducesTo [0, 1] S_
  bcast_S_S8192x128 : S_.BroadcastsInDim S8192x128 (![] : Fin 0 → Fin S8192x128.rank)
  reducesTo_S8192x128_S_d0_1 : S8192x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S32768x256 .f32) (main_arg1 : FVec F S64x256 .f32) (main_arg2 : FVec F S8192x64 .f32) (main_arg3 : FVec F S8192x128 .f32) (main_arg4 : FVec F S8192 .f32) (main_arg5 : IVec S4096 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg4 main_v13 main_v16
-- ==== Kernel.lean ====
abbrev S32768x256 : Shape := ⟨2, ![32768, 256]⟩
abbrev S64x256 : Shape := ⟨2, ![64, 256]⟩
abbrev S8192x64 : Shape := ⟨2, ![8192, 64]⟩
abbrev S8192x128 : Shape := ⟨2, ![8192, 128]⟩
abbrev S8192 : Shape := ⟨1, ![8192]⟩
abbrev S4096 : Shape := ⟨1, ![4096]⟩
abbrev S_ : Shape := ⟨0, ![]⟩
abbrev S4096x1 : Shape := ⟨2, ![4096, 1]⟩
abbrev S4096x64 : Shape := ⟨2, ![4096, 64]⟩
abbrev S4096x128 : Shape := ⟨2, ![4096, 128]⟩
abbrev S64x4096 : Shape := ⟨2, ![64, 4096]⟩
abbrev S256x64 : Shape := ⟨2, ![256, 64]⟩
abbrev S32768x64 : Shape := ⟨2, ![32768, 64]⟩
abbrev S32768x4096 : Shape := ⟨2, ![32768, 4096]⟩
abbrev S32768x128 : Shape := ⟨2, ![32768, 128]⟩
abbrev S1024x4096 : Shape := ⟨2, ![1024, 4096]⟩
abbrev S256x256 : Shape := ⟨2, ![256, 256]⟩
abbrev S256x4096 : Shape := ⟨2, ![256, 4096]⟩
abbrev S256x128 : Shape := ⟨2, ![256, 128]⟩
abbrev S8x4096 : Shape := ⟨2, ![8, 4096]⟩
abbrev S256 : Shape := ⟨1, ![256]⟩
abbrev S256x1 : Shape := ⟨2, ![256, 1]⟩
abbrev S1x4096 : Shape := ⟨2, ![1, 4096]⟩

abbrev nBuf : Space → Nat
  | .hbm => 73
  | .vmem => 13
  | .smem => 0
  | _ => 0

abbrev bufTy : (tb : Table) → Fin (tcTables nBuf tb) → BufTy
  | .hbm, ⟨0, _⟩ => ⟨S32768x256, .f32⟩
  | .hbm, ⟨1, _⟩ => ⟨S64x256, .f32⟩
  | .hbm, ⟨2, _⟩ => ⟨S8192x64, .f32⟩
  | .hbm, ⟨3, _⟩ => ⟨S8192x128, .f32⟩
  | .hbm, ⟨4, _⟩ => ⟨S8192, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x64, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x128, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x64, .f32⟩
  | .hbm, ⟨33, _⟩ => ⟨S4096x64, .f32⟩
  | .hbm, ⟨34, _⟩ => ⟨S64x4096, .f32⟩
  | .hbm, ⟨35, _⟩ => ⟨S64x4096, .bf16⟩
  | .hbm, ⟨36, _⟩ => ⟨S4096x128, .bf16⟩
  | .hbm, ⟨37, _⟩ => ⟨S256x64, .f32⟩
  | .hbm, ⟨38, _⟩ => ⟨S256x64, .bf16⟩
  | .hbm, ⟨39, _⟩ => ⟨S32768x64, .f32⟩
  | .hbm, ⟨40, _⟩ => ⟨S32768x4096, .f32⟩
  | .hbm, ⟨41, _⟩ => ⟨S32768x128, .f32⟩
  | .hbm, ⟨42, _⟩ => ⟨S1024x4096, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S8192, .f32⟩
  | .local _ .vmem, ⟨0, _⟩ => ⟨S256x256, .f32⟩
  | .local _ .vmem, ⟨1, _⟩ => ⟨S256x256, .f32⟩
  | .local _ .vmem, ⟨2, _⟩ => ⟨S256x64, .bf16⟩
  | .local _ .vmem, ⟨3, _⟩ => ⟨S64x4096, .bf16⟩
  | .local _ .vmem, ⟨4, _⟩ => ⟨S4096x128, .bf16⟩
  | .local _ .vmem, ⟨5, _⟩ => ⟨S256x64, .f32⟩
  | .local _ .vmem, ⟨6, _⟩ => ⟨S256x64, .f32⟩
  | .local _ .vmem, ⟨7, _⟩ => ⟨S256x4096, .f32⟩
  | .local _ .vmem, ⟨8, _⟩ => ⟨S256x4096, .f32⟩
  | .local _ .vmem, ⟨9, _⟩ => ⟨S256x128, .f32⟩
  | .local _ .vmem, ⟨10, _⟩ => ⟨S256x128, .f32⟩
  | .local _ .vmem, ⟨11, _⟩ => ⟨S8x4096, .f32⟩
  | .local _ .vmem, ⟨12, _⟩ => ⟨S8x4096, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev main_cst_3 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  bitsLt_bf16_f32 : FTy.bits .bf16 < FTy.bits .f32
  transposes_S64x256_S256x64_1_0 : S64x256.Transposes [1, 0] S256x64
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S256x64_S256 : S256x64.Reduces [1] S256
  shapeCasts_S256_S256x1 : S256.ShapeCasts S256x1
  broadcasts_S256x1_S256x64 : S256x1.Broadcasts S256x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  reduces_S256x4096_S256 : S256x4096.Reduces [1] S256
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  reduces_S256x4096_S4096 : S256x4096.Reduces [0] S4096
  shapeCasts_S4096_S1x4096 : S4096.ShapeCasts S1x4096
  shapeCasts_S1x4096_S1x4096 : S1x4096.ShapeCasts S1x4096
  broadcasts_S1x4096_S8x4096 : S1x4096.Broadcasts S8x4096
  inb_S8x4096_S8x4096_0_0 : ∀ a, (![0, 0] : Fin 2 → Nat) a + S8x4096.size a ≤ S8x4096.size a
  h_S8x4096 : 0 < S8x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x128_S256x128_0_0 : ∀ a, (![0, 0] : Fin 2 → Nat) a + S256x128.size a ≤ S256x128.size a
  h_S256x128 : 0 < S256x128.numel
  reducesTo_S1024x4096_S4096_d0 : S1024x4096.ReducesTo [0] S4096
  gather_S8192x64_S4096x1_S4096x64_1_0_n_n_0_1_164_wf : GatherDims.WF S8192x64 S4096x1 S4096x64 [1] [0] [] [0] [] 1 ![1, 64]
  gather_S8192x128_S4096x1_S4096x128_1_0_n_n_0_1_1128_wf : GatherDims.WF S8192x128 S4096x1 S4096x128 [1] [0] [] [0] [] 1 ![1, 128]
  dot_S256x256_S256x64_S256x64_1_0_0_1_n_n_wf : DotDims.WF S256x256 S256x64 S256x64 [1] [0] [0] [1] [] []
  dot_S256x64_S64x4096_S256x4096_1_0_0_1_n_n_wf : DotDims.WF S256x64 S64x4096 S256x4096 [1] [0] [0] [1] [] []
  dot_S256x4096_S4096x128_S256x128_1_0_0_1_n_n_wf : DotDims.WF S256x4096 S4096x128 S256x128 [1] [0] [0] [1] [] []
  gather_S8192_S4096x1_S4096_n_0_n_n_0_1_1_wf : GatherDims.WF S8192 S4096x1 S4096 [] [0] [] [0] [] 1 ![1]
  scatter_S8192_S4096x1_S4096_n_0_0_1_wf : ScatterDims.WF S8192 S4096x1 S4096 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S32768x256.size a
  hwx0_0 : ∀ i : grid0.Coords, EltTy.bits .f32 = 32 ∨ (Rect.block (s := S32768x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .bf16 = 32 ∨ (Rect.block (s := S64x4096) S64x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S32768x64.size a
  hwx0_4 : ∀ i : grid0.Coords, EltTy.bits .f32 = 32 ∨ (Rect.block (s := S32768x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S32768x4096.size a
  hwx0_5 : ∀ i : grid0.Coords, EltTy.bits .f32 = 32 ∨ (Rect.block (s := S32768x4096) S256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S32768x128.size a
  hwx0_6 : ∀ i : grid0.Coords, EltTy.bits .f32 = 32 ∨ (Rect.block (s := S32768x128) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x4096.size a ≤ S1024x4096.size a
  hwx0_7 : ∀ i : grid0.Coords, EltTy.bits .f32 = 32 ∨ (Rect.block (s := S1024x4096) S8x4096.size (cc0_transform_7 i) (hinb0_7 i)).WholeWords (EltTy.packing .f32)

variable [Facts₀]

def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def gather_S8192x128_S4096x1_S4096x128_1_0_n_n_0_1_1128 : GatherDims S8192x128 S4096x1 S4096x128 where
  offsetDims := [1]
  collapsedSliceDims := [0]
  operandBatchingDims := []
  startIndicesBatchingDims := []
  startIndexMap := [0]
  indexVectorDim := 1
  sliceSizes := ![1, 128]
  wf := gather_S8192x128_S4096x1_S4096x128_1_0_n_n_0_1_1128_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def gather_S8192_S4096x1_S4096_n_0_n_n_0_1_1 : GatherDims S8192 S4096x1 S4096 where
  offsetDims := []
  collapsedSliceDims := [0]
  operandBatchingDims := []
  startIndicesBatchingDims := []
  startIndexMap := [0]
  indexVectorDim := 1
  sliceSizes := ![1]
  wf := gather_S8192_S4096x1_S4096_n_0_n_n_0_1_1_wf
def scatter_S8192_S4096x1_S4096_n_0_0_1 : ScatterDims S8192 S4096x1 S4096 where
  updateWindowDims := []
  insertedWindowDims := [0]
  scatterDimsToOperandDims := [0]
  indexVectorDim := 1
  wf := scatter_S8192_S4096x1_S4096_n_0_0_1_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24_0) S256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_1) S256x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_2) S256x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_3) S8x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x256 : Shape := ⟨2, ![32768, 256]⟩
abbrev S64x256 : Shape := ⟨2, ![64, 256]⟩
abbrev S8192x64 : Shape := ⟨2, ![8192, 64]⟩
abbrev S8192x128 : Shape := ⟨2, ![8192, 128]⟩
abbrev S8192 : Shape := ⟨1, ![8192]⟩
abbrev S4096 : Shape := ⟨1, ![4096]⟩
abbrev S256x64 : Shape := ⟨2, ![256, 64]⟩
abbrev S32768x64 : Shape := ⟨2, ![32768, 64]⟩
abbrev S_ : Shape := ⟨0, ![]⟩
abbrev S4096x1 : Shape := ⟨2, ![4096, 1]⟩
abbrev S4096x64 : Shape := ⟨2, ![4096, 64]⟩
abbrev S4096x128 : Shape := ⟨2, ![4096, 128]⟩
abbrev S32768 : Shape := ⟨1, ![32768]⟩
abbrev S32768x1 : Shape := ⟨2, ![32768, 1]⟩
abbrev S64x4096 : Shape := ⟨2, ![64, 4096]⟩
abbrev S32768x4096 : Shape := ⟨2, ![32768, 4096]⟩
abbrev S32768x128 : Shape := ⟨2, ![32768, 128]⟩

abbrev nBuf : Space → Nat
  | .hbm => 96
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S64x256, .f32⟩
  | .hbm, ⟨2, _⟩ => ⟨S8192x64, .f32⟩
  | .hbm, ⟨3, _⟩ => ⟨S8192x128, .f32⟩
  | .hbm, ⟨4, _⟩ => ⟨S8192, .f32⟩
  | .hbm, ⟨5, _⟩ => ⟨S4096, .i32⟩
  | .hbm, ⟨6, _⟩ => ⟨S256x64, .f32⟩
  | .hbm, ⟨7, _⟩ => ⟨S32768x64, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x64, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x128, .f32⟩
  | .hbm, ⟨26, _⟩ => ⟨S32768x64, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x64, .f32⟩
  | .hbm, ⟨35, _⟩ => ⟨S32768x64, .f32⟩
  | .hbm, ⟨36, _⟩ => ⟨S4096x64, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x64, .f32⟩
  | .hbm, ⟨45, _⟩ => ⟨S4096x64, .f32⟩
  | .hbm, ⟨46, _⟩ => ⟨S64x4096, .f32⟩
  | .hbm, ⟨47, _⟩ => ⟨S32768x4096, .f32⟩
  | .hbm, ⟨48, _⟩ => ⟨S_, .f32⟩
  | .hbm, ⟨49, _⟩ => ⟨S32768x4096, .f32⟩
  | .hbm, ⟨50, _⟩ => ⟨S32768x4096, .f32⟩
  | .hbm, ⟨51, _⟩ => ⟨S_, .f32⟩
  | .hbm, ⟨52, _⟩ => ⟨S32768, .f32⟩
  | .hbm, ⟨53, _⟩ => ⟨S_, .f32⟩
  | .hbm, ⟨54, _⟩ => ⟨S32768, .f32⟩
  | .hbm, ⟨55, _⟩ => ⟨S32768, .f32⟩
  | .hbm, ⟨56, _⟩ => ⟨S32768x1, .f32⟩
  | .hbm, ⟨57, _⟩ => ⟨S32768x4096, .f32⟩
  | .hbm, ⟨58, _⟩ => ⟨S32768x4096, .f32⟩
  | .hbm, ⟨59, _⟩ => ⟨S32768x4096, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S32768x4096, .f32⟩
  | .hbm, ⟨64, _⟩ => ⟨S32768x4096, .f32⟩
  | .hbm, ⟨65, _⟩ => ⟨S32768x128, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .i32⟩
  | .hbm, ⟨72, _⟩ => ⟨S4096, .i32⟩
  | .hbm, ⟨73, _⟩ => ⟨S4096, .i1⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S4096, .i32⟩
  | .hbm, ⟨78, _⟩ => ⟨S4096x1, .i32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S4096, .f32⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S_, .i32⟩
  | .hbm, ⟨91, _⟩ => ⟨S4096, .i32⟩
  | .hbm, ⟨92, _⟩ => ⟨S4096, .i32⟩
  | .hbm, ⟨93, _⟩ => ⟨S4096, .i32⟩
  | .hbm, ⟨94, _⟩ => ⟨S4096x1, .i32⟩
  | .hbm, ⟨95, _⟩ => ⟨S8192, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  transposes_S64x256_S256x64_1_0 : S64x256.Transposes [1, 0] S256x64
  bcast_S_S4096 : S_.BroadcastsInDim S4096 (![] : Fin 0 → Fin S4096.rank)
  bcast_S4096_S4096x1_0 : S4096.BroadcastsInDim S4096x1 (![0] : Fin 1 → Fin S4096x1.rank)
  reducesTo_S32768x64_S32768_d1 : S32768x64.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x64_0_1 : S32768x1.BroadcastsInDim S32768x64 (![0, 1] : Fin 2 → Fin S32768x64.rank)
  reducesTo_S4096x64_S4096_d1 : S4096x64.ReducesTo [1] S4096
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  bcast_S_S32768x4096 : S_.BroadcastsInDim S32768x4096 (![] : Fin 0 → Fin S32768x4096.rank)
  reducesTo_S32768x4096_S32768_d1 : S32768x4096.ReducesTo [1] S32768
  bcast_S_S32768 : S_.BroadcastsInDim S32768 (![] : Fin 0 → Fin S32768.rank)
  bcast_S32768x1_S32768x4096_0_1 : S32768x1.BroadcastsInDim S32768x4096 (![0, 1] : Fin 2 → Fin S32768x4096.rank)
  reducesTo_S32768x4096_S4096_d0 : S32768x4096.ReducesTo [0] S4096
  dot_S32768x256_S256x64_S32768x64_1_0_0_1_n_n_wf : DotDims.WF S32768x256 S256x64 S32768x64 [1] [0] [0] [1] [] []
  gather_S8192x64_S4096x1_S4096x64_1_0_n_n_0_1_164_wf : GatherDims.WF S8192x64 S4096x1 S4096x64 [1] [0] [] [0] [] 1 ![1, 64]
  gather_S8192x128_S4096x1_S4096x128_1_0_n_n_0_1_1128_wf : GatherDims.WF S8192x128 S4096x1 S4096x128 [1] [0] [] [0] [] 1 ![1, 128]
  dot_S32768x64_S64x4096_S32768x4096_1_0_0_1_n_n_wf : DotDims.WF S32768x64 S64x4096 S32768x4096 [1] [0] [0] [1] [] []
  dot_S32768x4096_S4096x128_S32768x128_1_0_0_1_n_n_wf : DotDims.WF S32768x4096 S4096x128 S32768x128 [1] [0] [0] [1] [] []
  gather_S8192_S4096x1_S4096_n_0_n_n_0_1_1_wf : GatherDims.WF S8192 S4096x1 S4096 [] [0] [] [0] [] 1 ![1]
  scatter_S8192_S4096x1_S4096_n_0_0_1_wf : ScatterDims.WF S8192 S4096x1 S4096 [] [0] [0] 1

variable [Facts₀]

def dot_S32768x256_S256x64_S32768x64_1_0_0_1_n_n : DotDims S32768x256 S256x64 S32768x64 where
  lhsContracting := [1]
  rhsContracting := [0]
  lhsNonContracting := [0]
  rhsNonContracting := [1]
  lhsBatch := []
  rhsBatch := []
  wf := dot_S32768x256_S256x64_S32768x64_1_0_0_1_n_n_wf
def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def gather_S8192x128_S4096x1_S4096x128_1_0_n_n_0_1_1128 : GatherDims S8192x128 S4096x1 S4096x128 where
  offsetDims := [1]
  collapsedSliceDims := [0]
  operandBatchingDims := []
  startIndicesBatchingDims := []
  startIndexMap := [0]
  indexVectorDim := 1
  sliceSizes := ![1, 128]
  wf := gather_S8192x128_S4096x1_S4096x128_1_0_n_n_0_1_1128_wf
def dot_S32768x64_S64x4096_S32768x4096_1_0_0_1_n_n : DotDims S32768x64 S64x4096 S32768x4096 where
  lhsContracting := [1]
  rhsContracting := [0]
  lhsNonContracting := [0]
  rhsNonContracting := [1]
  lhsBatch := []
  rhsBatch := []
  wf := dot_S32768x64_S64x4096_S32768x4096_1_0_0_1_n_n_wf
def dot_S32768x4096_S4096x128_S32768x128_1_0_0_1_n_n : DotDims S32768x4096 S4096x128 S32768x128 where
  lhsContracting := [1]
  rhsContracting := [0]
  lhsNonContracting := [0]
  rhsNonContracting := [1]
  lhsBatch := []
  rhsBatch := []
  wf := dot_S32768x4096_S4096x128_S32768x128_1_0_0_1_n_n_wf
def gather_S8192_S4096x1_S4096_n_0_n_n_0_1_1 : GatherDims S8192 S4096x1 S4096 where
  offsetDims := []
  collapsedSliceDims := [0]
  operandBatchingDims := []
  startIndicesBatchingDims := []
  startIndexMap := [0]
  indexVectorDim := 1
  sliceSizes := ![1]
  wf := gather_S8192_S4096x1_S4096_n_0_n_n_0_1_1_wf
def scatter_S8192_S4096x1_S4096_n_0_0_1 : ScatterDims S8192 S4096x1 S4096 where
  updateWindowDims := []
  insertedWindowDims := [0]
  scatterDimsToOperandDims := [0]
  indexVectorDim := 1
  wf := scatter_S8192_S4096x1_S4096_n_0_0_1_wf

class Facts : Prop extends Facts₀ where

variable [Facts]
-- ==== Proof.Finite.lean ====
/-
  Under the precondition every entry of `hidden` and of `key_weight` is a real number.

  The precondition is a conjunction of five "all entries have absolute value below +∞" tests. An `and` that is true has both
  operands true; an all-reduction by `and` that is true is true at every index; and an extended real `x` with
  `max x (-x) < ⊤` is neither `⊤` nor `⊥`, hence a real.
-/
import proofs.«104340_j33157147525657_2_alg».proof.Pre_finite_inputs
import proofs.«104340_j33157147525657_2_alg».proof.Proof.Gen.Pre_finite_inputs
import Idealize.ShloMosaic.Lib.ReduceAll
import Idealize.ShloMosaic.Lib.ValueIdx
import Idealize.ShloMosaic.PureOps.Ideal.Laws

noncomputable section

namespace Cert.MemAttn

open Idealize.ShloMosaic Cert.Pre_finite_inputs

instance subsingleton_scalar_idx : Subsingleton S_.Idx := ⟨fun _ _ => funext fun d => d.elim0⟩

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => exact absurd h (by simp [Ideal.cmp])
  | top => exact absurd h (by simp [Ideal.cmp])
  | coe r => exact ⟨r, rfl⟩

/-- The first two conjuncts of the precondition, entry by entry. -/
theorem finite_of_pre (a0 : FVec Ideal S32768x256 .f32) (a1 : FVec Ideal S64x256 .f32) (a2 : FVec Ideal S8192x64 .f32)
    (a3 : FVec Ideal S8192x128 .f32) (a4 : FVec Ideal S8192 .f32) (a5 : IVec S4096 32)
    (h : fn (F := Ideal) a0 a1 a2 a3 a4 a5 = fun _ => 1#1) :
    (∀ i, ∃ r : ℝ, a0 i = (r : EReal)) ∧ (∀ i, ∃ r : ℝ, a1 i = (r : EReal)) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, h5⟩ := IntOp.andi_eq_one.1 h3
  exact ⟨fun i => real_of_abs_lt_inf _ (Host.reduce_andi_all _ _ _ _ _ h4 i),
    fun i => real_of_abs_lt_inf _ (Host.reduce_andi_all _ _ _ _ _ h5 i)⟩

end Cert.MemAttn

end
-- ==== Proof.Laws.lean ====
/-
  Scalar facts on the extended reals that join the two programs.

  * The two literals the reference divides by and clamps at are dyadic rationals: its `0.1` is 13421773 / 2^27 and its
    `1e-12` is 2305843 / 2^61.
  * Normalising a row: for a real entry `x` of a row whose squared norm `s ≥ 0` is real,
    `x · rsqrt (max s c²) = x / max (√s) c` for `c > 0`, because `√` is monotone, `√(c²) = c`, and a product with an inverse of a
    nonzero real is the quotient. This is the one place where finiteness of the entries is used.
  * Dividing by a nonzero real `d` is multiplying by `1/d`, for every extended real.
  * A sum over `A·B` indices is the iterated sum over `A` tiles of `B`; a sum of a function that is constant on each tile is
    `B` times the sum over tiles; and `(B • X) / (B·n) = X / n`.
-/
import Idealize.ShloMosaic.PureOps.Ideal
import Idealize.ShloMosaic.PureOps.Ideal.Laws
import Mathlib

noncomputable section

namespace Cert.MemAttn

open Idealize.ShloMosaic

/-- The reference's clamp `1e-12`, as the rational its word denotes. -/
def epsR : ℝ := 2305843 / 2305843009213693952
/-- The reference's temperature `0.1`, as the rational its word denotes. -/
def tempR : ℝ := 13421773 / 134217728

theorem ofBits_eps : Ideal.ofBits .f32 0x2B8CBCCC#32 = ((epsR : ℝ) : EReal) := by
  simp [Ideal.ofBits, Ideal.ieee, epsR, -EReal.coe_mul]; norm_num
theorem ofBits_temp : Ideal.ofBits .f32 0x3DCCCCCD#32 = ((tempR : ℝ) : EReal) := by
  simp [Ideal.ofBits, Ideal.ieee, tempR, -EReal.coe_mul]; norm_num
theorem ofBits_neg_inf : Ideal.ofBits .f32 0xFF800000#32 = ⊥ := by
  simp [Ideal.ofBits, Ideal.ieee]
theorem ofBits_262144 : Ideal.ofBits .f32 0x48800000#32 = ((262144 : ℝ) : EReal) := by
  simp [Ideal.ofBits, Ideal.ieee, -EReal.coe_mul]; norm_num
theorem ofBits_32768 : Ideal.ofBits .f32 0x47000000#32 = ((32768 : ℝ) : EReal) := by
  simp [Ideal.ofBits, Ideal.ieee, -EReal.coe_mul]; norm_num

theorem epsR_pos : 0 < epsR := by unfold epsR; norm_num
theorem epsSq_eq : (5316911940649 / 5316911983139663491615228241121378304 : ℝ) = epsR * epsR := by unfold epsR; norm_num
theorem invTemp_eq : (134217728 / 13421773 : ℝ) = 1 / tempR := by unfold tempR; norm_num
theorem tempR_ne : tempR ≠ 0 := by unfold tempR; norm_num

/-- A finite sum of products of reals, computed on the extended reals, is the real sum. -/
theorem sum_coe_mul {ι : Type*} (s : Finset ι) (a b : ι → ℝ) :
    ∑ k ∈ s, ((a k : EReal) * (b k : EReal)) = ((∑ k ∈ s, a k * b k : ℝ) : EReal) := by
  classical
  induction s using Finset.induction_on with
  | empty => simp
  | insert x s hx ih => rw [Finset.sum_insert hx, Finset.sum_insert hx, ih, EReal.coe_add, EReal.coe_mul]

/-- The coercion of the reals into the extended reals is monotone, so it commutes with `max`. -/
theorem coe_max (a b : ℝ) : ((max a b : ℝ) : EReal) = max (a : EReal) (b : EReal) :=
  EReal.coe_strictMono.monotone.map_max

/-- `√(max s c²) = max (√s) c` for `c ≥ 0`. -/
theorem sqrt_max_sq (s c : ℝ) (hc : 0 ≤ c) : Real.sqrt (max s (c * c)) = max (Real.sqrt s) c := by
  rcases le_total s (c * c) with h | h
  · rw [max_eq_right h, Real.sqrt_mul_self hc, max_eq_right]
    calc Real.sqrt s ≤ Real.sqrt (c * c) := Real.sqrt_le_sqrt h
      _ = c := Real.sqrt_mul_self hc
  · rw [max_eq_left h, max_eq_left]
    calc c = Real.sqrt (c * c) := (Real.sqrt_mul_self hc).symm
      _ ≤ Real.sqrt s := Real.sqrt_le_sqrt h

/-- One entry of a normalised row: the product with the reciprocal square root of the clamped squared norm is the quotient
    by the clamped norm. -/
theorem normalise_real (x s : ℝ) (hs : 0 ≤ s) :
    (x : EReal) * Ideal.rsqrt (max (s : EReal) ((5316911940649 / 5316911983139663491615228241121378304 : ℝ) : EReal))
      = Ideal.div (x : EReal) (max (Ideal.sqrt (s : EReal)) ((epsR : ℝ) : EReal)) := by
  have hm : 0 < max s (epsR * epsR) := lt_max_of_lt_right (mul_pos epsR_pos epsR_pos)
  have hy : max (Real.sqrt s) epsR ≠ 0 := (lt_max_of_lt_right epsR_pos).ne'
  rw [epsSq_eq, Ideal.sqrt_coe, if_neg (not_lt.mpr hs), ← coe_max, ← coe_max, Ideal.rsqrt_coe,
    if_neg (not_lt.mpr hm.le), if_neg hm.ne', Ideal.div_coe hy, ← EReal.coe_mul, ← EReal.coe_mul,
    sqrt_max_sq s epsR epsR_pos.le, one_div]

/-- The same for a row of extended reals all of which are real. -/
theorem normalise_row {n : ℕ} (Q : Fin n → EReal) (hQ : ∀ e, ∃ r : ℝ, Q e = (r : EReal)) (d : Fin n) :
    Q d * Ideal.rsqrt (max (∑ e, Q e * Q e) ((5316911940649 / 5316911983139663491615228241121378304 : ℝ) : EReal))
      = Ideal.div (Q d) (max (Ideal.sqrt (∑ e, Q e * Q e)) ((epsR : ℝ) : EReal)) := by
  choose q hq using hQ
  have hsum : ∑ e, Q e * Q e = ((∑ e, q e * q e : ℝ) : EReal) := by
    rw [← sum_coe_mul]; exact Finset.sum_congr rfl fun e _ => by rw [hq e]
  rw [hsum, hq d]
  exact normalise_real (q d) _ (Finset.sum_nonneg fun e _ => mul_self_nonneg (q e))

/-- Scaling by the reciprocal of the temperature is dividing by the temperature, on every extended real. -/
theorem temp_law (x : EReal) :
    x * ((134217728 / 13421773 : ℝ) : EReal) = Ideal.div x ((tempR : ℝ) : EReal) := by
  rw [Ideal.div_coe tempR_ne, invTemp_eq]

/-- A sum over `A · B` indices, tile by tile. -/
theorem sum_tiles {M : Type*} [AddCommMonoid M] (A B : ℕ) (g : Fin (A * B) → M) :
    ∑ k, g k = ∑ t : Fin A, ∑ p : Fin B, g (finProdFinEquiv (t, p)) := by
  rw [← Equiv.sum_comp finProdFinEquiv g, Fintype.sum_prod_type]

/-- A sum of a function constant on each tile of `B` indices is `B` times the sum over the tiles. -/
theorem sum_replicated {M : Type*} [AddCommMonoid M] (A B : ℕ) (R : Fin (A * B) → M) (P : Fin A → M)
    (h : ∀ t s, R (finProdFinEquiv (t, s)) = P t) : ∑ row, R row = B • ∑ t, P t := by
  rw [sum_tiles A B R, ← Finset.sum_nsmul]
  refine Finset.sum_congr rfl fun t _ => ?_
  rw [Finset.sum_congr rfl fun s _ => h t s, Finset.sum_const, Finset.card_univ, Fintype.card_fin]

theorem finProdFinEquiv_val {A B : ℕ} (t : Fin A) (p : Fin B) : (finProdFinEquiv (t, p)).val = p.val + B * t.val := rfl

/-- Eight copies of a total, divided by `8 · 32768`, is the total divided by `32768`. -/
theorem mean_law (X : EReal) :
    Ideal.div (8 • X) ((262144 : ℝ) : EReal) = Ideal.div X ((32768 : ℝ) : EReal) := by
  rw [Ideal.div_coe (by norm_num), Ideal.div_coe (by norm_num)]
  induction X using EReal.rec with
  | bot =>
    have h8 : (8 : ℕ) • (⊥ : EReal) = ⊥ := by simp [succ_nsmul]
    rw [h8, EReal.bot_mul_coe_of_pos (by norm_num), EReal.bot_mul_coe_of_pos (by norm_num)]
  | top =>
    have h8 : (8 : ℕ) • (⊤ : EReal) = ⊤ := by simp [succ_nsmul]
    rw [h8, EReal.top_mul_coe_of_pos (by norm_num), EReal.top_mul_coe_of_pos (by norm_num)]
  | coe r =>
    have h8 : (8 : ℕ) • (r : EReal) = ((8 * r : ℝ) : EReal) := by
      rw [← EReal.coe_nsmul]; congr 1; simp
    rw [h8, ← EReal.coe_mul, ← EReal.coe_mul]; congr 1; ring

end Cert.MemAttn

end
-- ==== Proof.Stages.lean ====
/-
  The kernel body's operations read at an index, at the ideal values.

  A tile is 256 rows. For a tile of `hidden` the body computes, row by row: the query row `q = h · Wᵀ` (a sum over 256
  products); the row scaled by the reciprocal square root of its clamped squared norm; the similarities with the 4096 keys
  (a sum over 64 products) times the reciprocal temperature; their soft-max along the row (subtract the row maximum,
  exponentiate, divide by the row sum); the context row (a sum over 4096 products with the values); and the column sums
  of the tile's soft-max, repeated on eight rows.

  Layout facts used: a vector `[a]` recast as a column `[a, 1]` reads its entry `i` at `(i, 0)`; a column `[a, 1]` broadcast
  to `[a, b]` reads, at `(p, c)`, the column's entry `(p, 0)`; a sum or a maximum along the last axis at row `p` ranges
  over the entries `(p, k)`; a sum along the first axis at column `c` ranges over the entries `(k, c)`; a product of an
  `[M, K]` by a `[K, N]` matrix into a zero accumulator is, at `(p, c)`, the sum over `k` of `a (p, k) · b (k, c)`.
-/
import proofs.«104340_j33157147525657_2_alg».proof.Proof.Gen.KernelIdeal.Skeleton
import proofs.«104340_j33157147525657_2_alg».proof.Proof.Laws
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Stages

open Idealize.ShloMosaic Idealize.ShloMosaic.ValueIdx Cert.KernelIdeal Cert.KernelIdeal.Gen Cert.MemAttn

variable {α : Type}

/-! ## Columns -/

/-- A vector `[a]` recast as a column `[a, 1]` reads, at `(i, u)`, its entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums and maxima along an axis -/

/-- The sum along the last axis of a `[256, 64]` tile, at row `p`. -/
theorem laneSum64 (x : FVec Ideal S256x64 .f32) (p : Fin 256) :
    multiReduction .add [1] S256 x 0x00000000#32 reduces_S256x64_S256 (.inl rfl) rfl (ix1 p) = ∑ e : Fin 64, x (ix2 p e) := by
  refine (Ideal.multiReduction_add_single x 0x00000000#32 reduces_S256x64_S256 (.inl rfl) rfl (ix1 p)).trans ?_
  exact Finset.sum_congr rfl fun e _ => congrArg x (funext fun ax => Fin.ext (by match ax with | ⟨0, _⟩ => rfl | ⟨1, _⟩ => rfl))

/-- The sum along the last axis of a `[256, 4096]` tile, at row `p`. -/
theorem laneSum4096 (x : FVec Ideal S256x4096 .f32) (p : Fin 256) :
    multiReduction .add [1] S256 x 0x00000000#32 reduces_S256x4096_S256 (.inl rfl) rfl (ix1 p) = ∑ k : Fin 4096, x (ix2 p k) := by
  refine (Ideal.multiReduction_add_single x 0x00000000#32 reduces_S256x4096_S256 (.inl rfl) rfl (ix1 p)).trans ?_
  exact Finset.sum_congr rfl fun e _ => congrArg x (funext fun ax => Fin.ext (by match ax with | ⟨0, _⟩ => rfl | ⟨1, _⟩ => rfl))

/-- The sum along the first axis of a `[256, 4096]` tile, at column `c`. -/
theorem colSum4096 (x : FVec Ideal S256x4096 .f32) (c : Fin 4096) :
    multiReduction .add [0] S4096 x 0x00000000#32 reduces_S256x4096_S4096 (.inl rfl) rfl (ix1 c) = ∑ k : Fin 256, x (ix2 k c) := by
  refine (Ideal.multiReduction_add_single x 0x00000000#32 reduces_S256x4096_S4096 (.inl rfl) rfl (ix1 c)).trans ?_
  exact Finset.sum_congr rfl fun e _ => congrArg x (funext fun ax => Fin.ext (by match ax with | ⟨0, _⟩ => rfl | ⟨1, _⟩ => rfl))

/-- The maximum along the last axis of a `[256, 4096]` tile, at row `p`: the fold of `max` from `-∞`. -/
theorem laneMax4096 (x : FVec Ideal S256x4096 .f32) (p : Fin 256) :
    multiReduction .maximumf [1] S256 x 0xFF800000#32 reduces_S256x4096_S256 (.inl rfl) rfl (ix1 p)
      = Finset.fold max (⊥ : EReal) (fun k : Fin 4096 => x (ix2 p k)) Finset.univ := by
  refine (Ideal.multiReduction_maximumf_single x 0xFF800000#32 reduces_S256x4096_S256 (.inl rfl) rfl (ix1 p)).trans ?_
  have e : FloatOps.ofBits (F := Ideal) .f32 0xFF800000#32 = (⊥ : EReal) := ofBits_neg_inf
  rw [e]
  refine congrArg (fun f => Finset.fold max (⊥ : EReal) f Finset.univ) (funext fun k => ?_)
  exact congrArg x (funext fun ax => Fin.ext (by match ax with | ⟨0, _⟩ => rfl | ⟨1, _⟩ => rfl))

/-! ## A product of two matrices into a zero accumulator -/

/-- For dimension numbers that contract the left operand's axis 1 with the right operand's axis 0, keep the left
    operand's axis 0 and the right operand's axis 1, and batch nothing: entry `(p, c)` of the product is
    `∑ k, a (p, k) · b (k, c)`. The contraction's one coordinate is carried to `Fin K`; the two kept coordinates are the
    hypotheses `hl0`, `hr1`, which each set of dimension numbers decides for itself. -/
theorem matmul2_apply {M K N : ℕ} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (i : (⟨2, ![M, N]⟩ : Shape).Idx) (q : D.contr.Idx), (D.lhsIdx i q 0).val = (i 0).val)
    (hr1 : ∀ (i : (⟨2, ![M, N]⟩ : Shape).Idx) (q : D.contr.Idx), (D.rhsIdx i q 1).val = (i 1).val)
    {φ₁ φ₂ : FTy} (a : FVec Ideal ⟨2, ![M, K]⟩ φ₁) (b : FVec Ideal ⟨2, ![K, N]⟩ φ₂) (p : Fin M) (c : Fin N) :
    matmul D none a b (constant ⟨2, ![M, N]⟩ .f32 0x00000000#32) (ix2 p c) = ∑ k : Fin K, a (ix2 p k) * b (ix2 k c) := by
  refine (Ideal.matmul_constant_zero_apply D none a b (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun ax => Fin.ext (by
    match ax with
    | ⟨0, _⟩ => exact hl0 _ _
    | ⟨1, _⟩ => exact (D.lhsIdx_val_of_single hlc _ _).trans hk)
  have er : D.rhsIdx (ix2 p c) ((contrEquiv1 D K hr hs).symm k) = ix2 k c := funext fun ax => Fin.ext (by
    match ax with
    | ⟨0, _⟩ => exact (D.rhsIdx_val_of_single hrc _ _).trans hk
    | ⟨1, _⟩ => exact hr1 _ _)
  rw [el, er]

/-- Query product: the kept coordinates of its dimension numbers. -/
theorem dotQ_l0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide),
    dif_pos (show (0 : Fin S256x256.rank) ∈ dot_S256x256_S256x64_S256x64_1_0_0_1_n_n.lhsNonContracting by decide)]
  rfl
theorem dotQ_r1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide),
    dif_pos (show (1 : Fin S256x64.rank) ∈ dot_S256x256_S256x64_S256x64_1_0_0_1_n_n.rhsNonContracting by decide)]
  rfl

/-- Similarity product: the kept coordinates of its dimension numbers. -/
theorem dotS_l0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide),
    dif_pos (show (0 : Fin S256x64.rank) ∈ dot_S256x64_S64x4096_S256x4096_1_0_0_1_n_n.lhsNonContracting by decide)]
  rfl
theorem dotS_r1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide),
    dif_pos (show (1 : Fin S64x4096.rank) ∈ dot_S256x64_S64x4096_S256x4096_1_0_0_1_n_n.rhsNonContracting by decide)]
  rfl

/-- Context product: the kept coordinates of its dimension numbers. -/
theorem dotC_l0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide),
    dif_pos (show (0 : Fin S256x4096.rank) ∈ dot_S256x4096_S4096x128_S256x128_1_0_0_1_n_n.lhsNonContracting by decide)]
  rfl
theorem dotC_r1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide),
    dif_pos (show (1 : Fin S4096x128.rank) ∈ dot_S256x4096_S4096x128_S256x128_1_0_0_1_n_n.rhsNonContracting by decide)]
  rfl

/-! ## The stages of the body -/

/-- The clamp under the reciprocal square root, as the table names it. -/
theorem named_eps_sq : (Named.named (F := Ideal) κ "eps_sq" (φ := .f32) 0x179ABE15#32 : EReal)
    = ((5316911940649 / 5316911983139663491615228241121378304 : ℝ) : EReal) :=
  IdealRules.named_const.ideal_named_scalar _ _ _ _ rfl

/-- The reciprocal temperature, as the table names it. -/
theorem named_inv_temp : (Named.named (F := Ideal) κ "inv_temp" (φ := .f32) 0x41200000#32 : EReal)
    = ((134217728 / 13421773 : ℝ) : EReal) :=
  IdealRules.named_const.ideal_named_scalar _ _ _ _ rfl

/-- The squared norms of a tile's rows. -/
def sqNorms (Q : FVec Ideal S256x64 .f32) : FVec Ideal S256 .f32 :=
  multiReduction .add [1] S256 (mulf Q Q) 0x00000000#32 reduces_S256x64_S256 (.inl rfl) rfl

/-- The reciprocal square roots of the clamped squared norms, as a column. -/
def invNorms (Q : FVec Ideal S256x64 .f32) : FVec Ideal S256x1 .f32 :=
  rsqrt (maximumf (shapeCast S256x1 (sqNorms Q) shapeCasts_S256_S256x1)
    (broadcast S256x1 (Named.named κ "eps_sq" 0x179ABE15#32 : Ideal .f32)))

/-- A tile's rows scaled to unit length (or by the clamp's reciprocal root). -/
def unitRows (Q : FVec Ideal S256x64 .f32) : FVec Ideal S256x64 .f32 :=
  mulf Q (broadcastTo S256x64 (invNorms Q) broadcasts_S256x1_S256x64)

/-- The similarities of a tile's unit rows with the keys, over the temperature. -/
def sims (U : FVec Ideal S256x64 .f32) (v15 : FVec Ideal S64x4096 .bf16) : FVec Ideal S256x4096 .f32 :=
  mulf (matmul dot_S256x64_S64x4096_S256x4096_1_0_0_1_n_n none (truncf .bf16 U bitsLt_bf16_f32)
      (shapeCast S64x4096 v15 shapeCasts_S64x4096_S64x4096) (constant S256x4096 .f32 0x00000000#32))
    (broadcast S256x4096 (Named.named κ "inv_temp" 0x41200000#32 : Ideal .f32))

/-- The row maxima of a tile. -/
def rowMax (S : FVec Ideal S256x4096 .f32) : FVec Ideal S256 .f32 :=
  multiReduction .maximumf [1] S256 S 0xFF800000#32 reduces_S256x4096_S256 (.inl rfl) rfl

/-- The exponentials of a tile's entries less their row's maximum. -/
def expShift (S : FVec Ideal S256x4096 .f32) : FVec Ideal S256x4096 .f32 :=
  exp (subf S (broadcastTo S256x4096 (shapeCast S256x1 (rowMax S) shapeCasts_S256_S256x1) broadcasts_S256x1_S256x4096))

/-- The row sums of a tile. -/
def rowSum (E : FVec Ideal S256x4096 .f32) : FVec Ideal S256 .f32 :=
  multiReduction .add [1] S256 E 0x00000000#32 reduces_S256x4096_S256 (.inl rfl) rfl

/-- The soft-max of a tile along its rows. -/
def softmaxRows (S : FVec Ideal S256x4096 .f32) : FVec Ideal S256x4096 .f32 :=
  divf (expShift S) (broadcastTo S256x4096 (shapeCast S256x1 (rowSum (expShift S)) shapeCasts_S256_S256x1) broadcasts_S256x1_S256x4096)

/-- The body's attention payload is the composition of the stages. -/
theorem pay3_eq (v0 : Vec Ideal S256x256 .f32) (v2 : Vec Ideal S256x64 .bf16) (v15 : Vec Ideal S64x4096 .bf16) :
    k0_pay3 (F := Ideal) v0 v2 v15 = softmaxRows (sims (unitRows (k0_pay2 (F := Ideal) v0 v2)) v15) := rfl

/-! ## The stages at an index -/

theorem pay2_apply (v0 : FVec Ideal S256x256 .f32) (v2 : FVec Ideal S256x64 .bf16) (p : Fin 256) (d : Fin 64) :
    k0_pay2 (F := Ideal) v0 v2 (ix2 p d) = ∑ k : Fin 256, v0 (ix2 p k) * v2 (ix2 k d) := by
  unfold k0_pay2
  refine (matmul2_apply dot_S256x256_S256x64_S256x64_1_0_0_1_n_n rfl rfl rfl rfl dotQ_l0 dotQ_r1 _ _ p d).trans ?_
  rw [shapeCast_self]
  rfl

theorem sqNorms_apply (Q : FVec Ideal S256x64 .f32) (p : Fin 256) :
    sqNorms Q (ix1 p) = ∑ e : Fin 64, Q (ix2 p e) * Q (ix2 p e) :=
  laneSum64 (mulf Q Q) p

theorem invNorms_apply (Q : FVec Ideal S256x64 .f32) (p : Fin 256) :
    invNorms Q (ix2 p (0 : Fin 1)) = Ideal.rsqrt (max (∑ e : Fin 64, Q (ix2 p e) * Q (ix2 p e))
      ((5316911940649 / 5316911983139663491615228241121378304 : ℝ) : EReal)) := by
  show Ideal.rsqrt (max (shapeCast S256x1 (sqNorms Q) shapeCasts_S256_S256x1 (ix2 p (0 : Fin 1)))
    (Named.named (F := Ideal) κ "eps_sq" (φ := .f32) 0x179ABE15#32 : EReal)) = _
  rw [shapeCast_a_a1_apply, sqNorms_apply, named_eps_sq]

theorem unitRows_apply (Q : FVec Ideal S256x64 .f32) (p : Fin 256) (d : Fin 64) :
    unitRows Q (ix2 p d) = Q (ix2 p d) * Ideal.rsqrt (max (∑ e : Fin 64, Q (ix2 p e) * Q (ix2 p e))
      ((5316911940649 / 5316911983139663491615228241121378304 : ℝ) : EReal)) := by
  show Q (ix2 p d) * broadcastTo S256x64 (invNorms Q) broadcasts_S256x1_S256x64 (ix2 p d) = _
  rw [broadcastTo_a1_ab_apply, invNorms_apply]

theorem sims_apply (U : FVec Ideal S256x64 .f32) (v15 : FVec Ideal S64x4096 .bf16) (p : Fin 256) (j : Fin 4096) :
    sims U v15 (ix2 p j) = (∑ d : Fin 64, U (ix2 p d) * v15 (ix2 d j)) * ((134217728 / 13421773 : ℝ) : EReal) := by
  show matmul dot_S256x64_S64x4096_S256x4096_1_0_0_1_n_n none (truncf .bf16 U bitsLt_bf16_f32)
      (shapeCast S64x4096 v15 shapeCasts_S64x4096_S64x4096) (constant S256x4096 .f32 0x00000000#32) (ix2 p j)
    * (Named.named (F := Ideal) κ "inv_temp" (φ := .f32) 0x41200000#32 : EReal) = _
  rw [named_inv_temp, shapeCast_self]
  refine congrArg (· * _) ?_
  refine (matmul2_apply dot_S256x64_S64x4096_S256x4096_1_0_0_1_n_n rfl rfl rfl rfl dotS_l0 dotS_r1 _ _ p j).trans ?_
  rfl

theorem rowMax_apply (S : FVec Ideal S256x4096 .f32) (p : Fin 256) :
    rowMax S (ix1 p) = Finset.fold max (⊥ : EReal) (fun k : Fin 4096 => S (ix2 p k)) Finset.univ :=
  laneMax4096 S p

theorem expShift_apply (S : FVec Ideal S256x4096 .f32) (p : Fin 256) (j : Fin 4096) :
    expShift S (ix2 p j) = Ideal.exp (S (ix2 p j) - Finset.fold max (⊥ : EReal) (fun k : Fin 4096 => S (ix2 p k)) Finset.univ) := by
  show Ideal.exp (S (ix2 p j) - broadcastTo S256x4096 (shapeCast S256x1 (rowMax S) shapeCasts_S256_S256x1) broadcasts_S256x1_S256x4096 (ix2 p j)) = _
  rw [broadcastTo_a1_ab_apply, shapeCast_a_a1_apply, rowMax_apply]

theorem softmaxRows_apply (S : FVec Ideal S256x4096 .f32) (p : Fin 256) (j : Fin 4096) :
    softmaxRows S (ix2 p j) = Ideal.div (expShift S (ix2 p j)) (∑ k : Fin 4096, expShift S (ix2 p k)) := by
  show Ideal.div (expShift S (ix2 p j)) (broadcastTo S256x4096 (shapeCast S256x1 (rowSum (expShift S)) shapeCasts_S256_S256x1) broadcasts_S256x1_S256x4096 (ix2 p j)) = _
  rw [broadcastTo_a1_ab_apply, shapeCast_a_a1_apply]
  exact congrArg (Ideal.div _) (laneSum4096 (expShift S) p)

/-- The context payload at an index: the sum over the 4096 slots of attention times value. -/
theorem pay1_apply (A : FVec Ideal S256x4096 .bf16) (v36 : FVec Ideal S4096x128 .bf16) (p : Fin 256) (v : Fin 128) :
    k0_pay1 (F := Ideal) A v36 (ix2 p v) = ∑ j : Fin 4096, A (ix2 p j) * v36 (ix2 j v) := by
  unfold k0_pay1
  refine (matmul2_apply dot_S256x4096_S4096x128_S256x128_1_0_0_1_n_n rfl rfl rfl rfl dotC_l0 dotC_r1 _ _ p v).trans ?_
  rw [shapeCast_self]

/-- The partial-sum payload at an index: the column sum of the tile's attention, whatever the row of the eight. -/
theorem pay4_apply (v0 : Vec Ideal S256x256 .f32) (v2 : Vec Ideal S256x64 .bf16) (v15 : Vec Ideal S64x4096 .bf16) (s : Fin 8) (j : Fin 4096) :
    k0_pay4 (F := Ideal) v0 v2 v15 (ix2 s j) = ∑ p : Fin 256, k0_pay3 (F := Ideal) v0 v2 v15 (ix2 p j) := by
  unfold k0_pay4
  refine (broadcastTo_1b_ab_apply _ _ s j).trans ?_
  rw [shapeCast_self]
  refine (shapeCast_a_1a_apply _ _ (0 : Fin 1) j).trans ?_
  exact colSum4096 _ j

end Cert.KernelIdeal.Stages

end
-- ==== Proof.RefRows.lean ====
/-
  The reference's operations read along a row, at the ideal values, in the form the kernel's tile computes them.

  Row `r` of the query is `q_r = h_r · Wᵀ`. The reference divides `q_r` by `max (√(q_r · q_r)) ε`; by the normalisation law
  (all entries of `q_r` being real) this is `q_r` times the reciprocal square root of `max (q_r · q_r) ε²`. It divides the
  similarities by the temperature; by the temperature law this is the product with the reciprocal temperature. Its soft-max
  takes one more maximum with `-∞`, which changes nothing. Its sums start from the literal `0`.
-/
import proofs.«104340_j33157147525657_2_alg».proof.Proof.Gen.ReferenceIdeal.Read
import proofs.«104340_j33157147525657_2_alg».proof.Proof.Laws

noncomputable section

namespace Cert.ReferenceIdeal.Rows

open Cert.ReferenceIdeal Cert.ReferenceIdeal.Gen Cert.ReferenceIdeal.Read Idealize.ShloMosaic Idealize.ShloMosaic.ValueIdx Cert.MemAttn

variable (x0 : (⟨S32768x256, .f32⟩ : BufTy).Contents (Elt Ideal)) (x1 : (⟨S64x256, .f32⟩ : BufTy).Contents (Elt Ideal))
  (x2 : (⟨S8192x64, .f32⟩ : BufTy).Contents (Elt Ideal)) (x3 : (⟨S8192x128, .f32⟩ : BufTy).Contents (Elt Ideal))
  (x5 : (⟨S4096, .i32⟩ : BufTy).Contents (Elt Ideal))

theorem zero_f32 : FloatOps.ofBits (F := Ideal) .f32 0x00000000#32 = (0 : EReal) := Ideal.ofBits_zero_f32
theorem neg_inf_f32 : FloatOps.ofBits (F := Ideal) .f32 0xFF800000#32 = (⊥ : EReal) := ofBits_neg_inf
theorem eps_f32 : FloatOps.ofBits (F := Ideal) .f32 0x2B8CBCCC#32 = ((epsR : ℝ) : EReal) := ofBits_eps
theorem temp_f32 : FloatOps.ofBits (F := Ideal) .f32 0x3DCCCCCD#32 = ((tempR : ℝ) : EReal) := ofBits_temp
theorem n32768_f32 : FloatOps.ofBits (F := Ideal) .f32 0x47000000#32 = ((32768 : ℝ) : EReal) := ofBits_32768

/-- The transposed weights: entry `(k, d)` is `key_weight (d, k)`. -/
theorem weightsT_apply (k : Fin 256) (d : Fin 64) : val_main_v0 (F := Ideal) x1 (ix2 k d) = x1 (ix2 d k) := by
  rw [val_main_v0_apply]
  exact congrArg x1 (funext fun a => Fin.ext (by match a with | ⟨0, _⟩ => rfl | ⟨1, _⟩ => rfl))

/-- The query at `(r, d)`. -/
theorem query_row (r : Fin 32768) (d : Fin 64) :
    val_main_v1 (F := Ideal) x0 x1 (ix2 r d) = ∑ k : Fin 256, x0 (ix2 r k) * val_main_v0 (F := Ideal) x1 (ix2 k d) := by
  rw [val_main_v1_apply]
  refine Finset.sum_congr rfl fun k _ => ?_
  have e1 : lidx_main_v1 (ix2 r d) k = ix2 r k := funext fun a => Fin.ext (by match a with | ⟨0, _⟩ => rfl | ⟨1, _⟩ => rfl)
  have e2 : ridx_main_v1 (ix2 r d) k = ix2 k d := funext fun a => Fin.ext (by match a with | ⟨0, _⟩ => rfl | ⟨1, _⟩ => rfl)
  rw [e1, e2]

/-- With real inputs every query entry is real. -/
theorem query_real (h0 : ∀ i, ∃ q : ℝ, x0 i = (q : EReal)) (h1 : ∀ i, ∃ q : ℝ, x1 i = (q : EReal)) (r : Fin 32768) (d : Fin 64) :
    ∃ q : ℝ, val_main_v1 (F := Ideal) x0 x1 (ix2 r d) = (q : EReal) := by
  choose a ha using h0
  choose b hb using h1
  refine ⟨∑ k : Fin 256, a (ix2 r k) * b (ix2 d k), ?_⟩
  rw [query_row, ← sum_coe_mul]
  exact Finset.sum_congr rfl fun k _ => by rw [weightsT_apply, ha, hb]

/-- The squared norm of query row `r`. -/
theorem sqnorm_row (r : Fin 32768) :
    val_main_call0_v1 (F := Ideal) x0 x1 (ix1 r)
      = ∑ e : Fin 64, val_main_v1 (F := Ideal) x0 x1 (ix2 r e) * val_main_v1 (F := Ideal) x0 x1 (ix2 r e) := by
  rw [val_main_call0_v1_apply, val_main_call0_cst_apply, zero_f32, zero_add]
  refine Finset.sum_congr rfl fun e _ => ?_
  have e1 : idx_main_call0_v1 (ix1 r) e = ix2 r e := funext fun a => Fin.ext (by match a with | ⟨0, _⟩ => rfl | ⟨1, _⟩ => rfl)
  rw [e1]
  rfl

/-- The normalised query at `(r, d)`, as a product with a reciprocal square root. -/
theorem unit_row (hfin : ∀ r e, ∃ q : ℝ, val_main_v1 (F := Ideal) x0 x1 (ix2 r e) = (q : EReal)) (r : Fin 32768) (d : Fin 64) :
    val_main_v20 (F := Ideal) x0 x1 (ix2 r d)
      = val_main_v1 (F := Ideal) x0 x1 (ix2 r d) * Ideal.rsqrt (max (∑ e : Fin 64, val_main_v1 (F := Ideal) x0 x1 (ix2 r e) * val_main_v1 (F := Ideal) x0 x1 (ix2 r e))
          ((5316911940649 / 5316911983139663491615228241121378304 : ℝ) : EReal)) := by
  have e1 : idx_main_v19 (ix2 r d) = ix2 r (0 : Fin 1) := funext fun a => Fin.ext (by match a with | ⟨0, _⟩ => rfl | ⟨1, _⟩ => rfl)
  have e2 : idx_main_call0_v2 (ix2 r (0 : Fin 1)) = ix1 r := funext fun a => Fin.ext (by match a with | ⟨0, _⟩ => rfl)
  rw [val_main_v20_apply, val_main_v19_apply, e1, val_main_v18_apply, val_main_v16_apply, val_main_call0_v2_apply, e2, sqnorm_row,
    val_main_v17_apply, val_main_cst_apply, eps_f32, Ideal.hostDivf_def, Ideal.maximumf_def, Ideal.hostUnary_sqrt_def]
  exact (normalise_row (fun e => val_main_v1 (F := Ideal) x0 x1 (ix2 r e)) (hfin r) d).symm

set_option maxRecDepth 65536 in
/-- The similarities over the temperature at `(r, j)`, as a product with the reciprocal temperature. -/
theorem sims_row (r : Fin 32768) (j : Fin 4096) :
    val_main_v29 (F := Ideal) x0 x1 x2 x5 (ix2 r j)
      = (∑ d : Fin 64, val_main_v20 (F := Ideal) x0 x1 (ix2 r d) * val_main_v26 (F := Ideal) x2 x5 (ix2 d j)) * ((134217728 / 13421773 : ℝ) : EReal) := by
  rw [val_main_v29_apply, val_main_v27_apply, val_main_v28_apply, val_main_cst_4_apply, temp_f32, Ideal.hostDivf_def, ← temp_law]
  refine congrArg (· * _) (Finset.sum_congr rfl fun d _ => ?_)
  have e1 : lidx_main_v27 (ix2 r j) d = ix2 r d := funext fun a => Fin.ext (by match a with | ⟨0, _⟩ => rfl | ⟨1, _⟩ => rfl)
  have e2 : ridx_main_v27 (ix2 r j) d = ix2 d j := funext fun a => Fin.ext (by match a with | ⟨0, _⟩ => rfl | ⟨1, _⟩ => rfl)
  rw [e1, e2]

/-- The host's maximum along the last axis from `-∞`, at row `r`: the fold of `max` over the row. -/
theorem host_rowmax (y : FVec Ideal S32768x4096 .f32) (r : Fin 32768) :
    Host.reduce (FloatOps.maximumf (F := Ideal) (φ := .f32)) y (val_main_cst_5 (F := Ideal)) reducesTo_S32768x4096_S32768_d1 h_S_ (ix1 r)
      = Finset.fold max (⊥ : EReal) (fun k : Fin 4096 => y (ix2 r k)) Finset.univ := by
  refine (Host.reduce_eq_fold_single (FloatOps.maximumf (F := Ideal) (φ := .f32)) y _ reducesTo_S32768x4096_S32768_d1 (by decide) h_S_ (ix1 r)).trans ?_
  rw [val_main_cst_5_apply, neg_inf_f32]
  show Finset.fold max (⊥ : EReal) _ Finset.univ = _
  refine congrArg (fun f => Finset.fold max (⊥ : EReal) f Finset.univ) (funext fun k => ?_)
  exact congrArg y (funext fun a => Fin.ext (by match a with | ⟨0, _⟩ => rfl | ⟨1, _⟩ => rfl))

/-- The row maximum at `r`: one more maximum with `-∞` changes nothing. -/
theorem rowmax_row (r : Fin 32768) :
    val_main_v32 (F := Ideal) x0 x1 x2 x5 (ix1 r)
      = Finset.fold max (⊥ : EReal) (fun k : Fin 4096 => val_main_v29 (F := Ideal) x0 x1 x2 x5 (ix2 r k)) Finset.univ := by
  rw [val_main_v32_apply, val_main_v31_apply, val_main_cst_6_apply, neg_inf_f32]
  show max (⊥ : EReal) (val_main_v30 (F := Ideal) x0 x1 x2 x5 (ix1 r)) = _
  rw [max_bot_left]
  exact host_rowmax (val_main_v29 (F := Ideal) x0 x1 x2 x5) r

/-- The shifted exponential at `(r, j)`. -/
theorem exp_row (r : Fin 32768) (j : Fin 4096) :
    val_main_v36 (F := Ideal) x0 x1 x2 x5 (ix2 r j)
      = Ideal.exp (val_main_v29 (F := Ideal) x0 x1 x2 x5 (ix2 r j)
          - Finset.fold max (⊥ : EReal) (fun k : Fin 4096 => val_main_v29 (F := Ideal) x0 x1 x2 x5 (ix2 r k)) Finset.univ) := by
  have e1 : idx_main_v34 (ix2 r j) = ix2 r (0 : Fin 1) := funext fun a => Fin.ext (by match a with | ⟨0, _⟩ => rfl | ⟨1, _⟩ => rfl)
  have e2 : idx_main_v33 (ix2 r (0 : Fin 1)) = ix1 r := funext fun a => Fin.ext (by match a with | ⟨0, _⟩ => rfl)
  rw [val_main_v36_apply, val_main_v35_apply, val_main_v34_apply, e1, val_main_v33_apply, e2, rowmax_row]
  rfl

/-- The soft-max at `(r, j)`. -/
theorem attn_row (r : Fin 32768) (j : Fin 4096) :
    val_main_v40 (F := Ideal) x0 x1 x2 x5 (ix2 r j)
      = Ideal.div (val_main_v36 (F := Ideal) x0 x1 x2 x5 (ix2 r j)) (∑ k : Fin 4096, val_main_v36 (F := Ideal) x0 x1 x2 x5 (ix2 r k)) := by
  have e1 : idx_main_v39 (ix2 r j) = ix2 r (0 : Fin 1) := funext fun a => Fin.ext (by match a with | ⟨0, _⟩ => rfl | ⟨1, _⟩ => rfl)
  have e2 : idx_main_v38 (ix2 r (0 : Fin 1)) = ix1 r := funext fun a => Fin.ext (by match a with | ⟨0, _⟩ => rfl)
  rw [val_main_v40_apply, val_main_v39_apply, e1, val_main_v38_apply, e2, val_main_v37_apply, val_main_cst_7_apply, zero_f32, zero_add]
  refine congrArg (Ideal.div _) (Finset.sum_congr rfl fun k _ => ?_)
  exact congrArg _ (funext fun a => Fin.ext (by match a with | ⟨0, _⟩ => rfl | ⟨1, _⟩ => rfl))

/-- The context at `(r, v)`. -/
theorem ctx_row (r : Fin 32768) (v : Fin 128) :
    val_main_v41 (F := Ideal) x0 x1 x2 x3 x5 (ix2 r v)
      = ∑ j : Fin 4096, val_main_v40 (F := Ideal) x0 x1 x2 x5 (ix2 r j) * val_main_v15 (F := Ideal) x3 x5 (ix2 j v) := by
  rw [val_main_v41_apply]
  refine Finset.sum_congr rfl fun j _ => ?_
  have e1 : lidx_main_v41 (ix2 r v) j = ix2 r j := funext fun a => Fin.ext (by match a with | ⟨0, _⟩ => rfl | ⟨1, _⟩ => rfl)
  have e2 : ridx_main_v41 (ix2 r v) j = ix2 j v := funext fun a => Fin.ext (by match a with | ⟨0, _⟩ => rfl | ⟨1, _⟩ => rfl)
  rw [e1, e2]

set_option maxRecDepth 65536 in
/-- The mean attention of slot `j`: the column sum over all 32768 rows, divided by 32768. -/
theorem mean_col (j : Fin 4096) :
    val_main_v44 (F := Ideal) x0 x1 x2 x5 (ix1 j)
      = Ideal.div (∑ k : Fin 32768, val_main_v40 (F := Ideal) x0 x1 x2 x5 (ix2 k j)) ((32768 : ℝ) : EReal) := by
  rw [val_main_v44_apply, val_main_v42_apply, val_main_cst_8_apply, zero_f32, zero_add, val_main_v43_apply, val_main_cst_9_apply, n32768_f32, Ideal.hostDivf_def]
  refine congrArg (Ideal.div · _) (Finset.sum_congr rfl fun k _ => ?_)
  exact congrArg _ (funext fun a => Fin.ext (by match a with | ⟨0, _⟩ => rfl | ⟨1, _⟩ => rfl))

end Cert.ReferenceIdeal.Rows

end
-- ==== Proof.Tiles.lean ====
/-
  A tile of the kernel is a block of 256 consecutive rows, and every stage of the body, applied to the rows
  `256 t, …, 256 t + 255` of an array, gives those rows of the reference's next array.

  `tile G t` is the restriction of a `[32768, n]` array `G` to those rows. Stage by stage: the query product of the tile of
  `hidden` with the transposed weights is the tile of the reference's query; normalising it gives the tile of the normalised
  query (rows of reals: the normalisation law); the similarities with the normalised keys, scaled, give the tile of the
  reference's similarities (the temperature law); the row soft-max gives the tile of the attention; the product with the
  values gives the tile of the context; and the column sums of the tile's attention are the sums of the attention over
  the tile's rows.
-/
import proofs.«104340_j33157147525657_2_alg».proof.Proof.Stages
import proofs.«104340_j33157147525657_2_alg».proof.Proof.RefRows

noncomputable section

namespace Cert.KernelIdeal.Tiles

open Idealize.ShloMosaic Idealize.ShloMosaic.ValueIdx Cert.KernelIdeal Cert.KernelIdeal.Gen Cert.KernelIdeal.Stages Cert.MemAttn
open Cert.ReferenceIdeal.Read Cert.ReferenceIdeal.Rows

/-- Rows `256 t … 256 t + 255` of an array with `n` columns. -/
def tile {n : ℕ} (G : (⟨2, ![32768, n]⟩ : Shape).Idx → EReal) (t : Fin 128) : (⟨2, ![256, n]⟩ : Shape).Idx → EReal :=
  fun y => G (ix2 (⟨t.val * 256 + (y 0).val, by have := idx2_lt0 y; have := t.isLt; omega⟩ : Fin 32768) (⟨(y 1).val, idx2_lt1 y⟩ : Fin n))

/-- Row `p` of tile `t` is row `256 t + p`. -/
def rowOf (t : Fin 128) (p : Fin 256) : Fin 32768 := ⟨t.val * 256 + p.val, by have := t.isLt; have := p.isLt; omega⟩

theorem tile_apply {n : ℕ} (G : (⟨2, ![32768, n]⟩ : Shape).Idx → EReal) (t : Fin 128) (p : Fin 256) (c : Fin n) :
    tile G t (ix2 p c) = G (ix2 (rowOf t p) c) := rfl

variable (x0 : (⟨2, ![32768, 256]⟩ : Shape).Idx → EReal) (x1 : (⟨2, ![64, 256]⟩ : Shape).Idx → EReal)
  (x2 : (⟨2, ![8192, 64]⟩ : Shape).Idx → EReal) (x3 : (⟨2, ![8192, 128]⟩ : Shape).Idx → EReal)
  (x5 : (⟨1, ![4096]⟩ : Shape).Idx → BitVec 32)

/-- The query product on a tile. -/
theorem query_tile (t : Fin 128) :
    k0_pay2 (F := Ideal) (tile x0 t) (val_main_v0 (F := Ideal) x1) = tile (val_main_v1 (F := Ideal) x0 x1) t := by
  funext y
  obtain ⟨p, d, rfl⟩ : ∃ (p : Fin 256) (d : Fin 64), y = ix2 p d := ⟨y 0, y 1, eq_ix2 y⟩
  rw [pay2_apply]
  simp only [tile_apply]
  exact (query_row x0 x1 (rowOf t p) d).symm

/-- The normalisation on a tile, for real query rows. -/
theorem unit_tile (hfin : ∀ r e, ∃ q : ℝ, val_main_v1 (F := Ideal) x0 x1 (ix2 r e) = (q : EReal)) (t : Fin 128) :
    unitRows (tile (val_main_v1 (F := Ideal) x0 x1) t) = tile (val_main_v20 (F := Ideal) x0 x1) t := by
  funext y
  obtain ⟨p, d, rfl⟩ : ∃ (p : Fin 256) (d : Fin 64), y = ix2 p d := ⟨y 0, y 1, eq_ix2 y⟩
  rw [unitRows_apply]
  simp only [tile_apply]
  exact (unit_row x0 x1 hfin (rowOf t p) d).symm

/-- The scaled similarities on a tile. -/
theorem sims_tile (t : Fin 128) :
    sims (tile (val_main_v20 (F := Ideal) x0 x1) t) (val_main_v26 (F := Ideal) x2 x5) = tile (val_main_v29 (F := Ideal) x0 x1 x2 x5) t := by
  funext y
  obtain ⟨p, j, rfl⟩ : ∃ (p : Fin 256) (j : Fin 4096), y = ix2 p j := ⟨y 0, y 1, eq_ix2 y⟩
  rw [sims_apply]
  simp only [tile_apply]
  exact (sims_row x0 x1 x2 x5 (rowOf t p) j).symm

/-- The shifted exponentials on a tile. -/
theorem exp_tile (t : Fin 128) :
    expShift (tile (val_main_v29 (F := Ideal) x0 x1 x2 x5) t) = tile (val_main_v36 (F := Ideal) x0 x1 x2 x5) t := by
  funext y
  obtain ⟨p, j, rfl⟩ : ∃ (p : Fin 256) (j : Fin 4096), y = ix2 p j := ⟨y 0, y 1, eq_ix2 y⟩
  rw [expShift_apply]
  simp only [tile_apply]
  exact (exp_row x0 x1 x2 x5 (rowOf t p) j).symm

/-- The row soft-max on a tile. -/
theorem softmax_tile (t : Fin 128) :
    softmaxRows (tile (val_main_v29 (F := Ideal) x0 x1 x2 x5) t) = tile (val_main_v40 (F := Ideal) x0 x1 x2 x5) t := by
  funext y
  obtain ⟨p, j, rfl⟩ : ∃ (p : Fin 256) (j : Fin 4096), y = ix2 p j := ⟨y 0, y 1, eq_ix2 y⟩
  rw [softmaxRows_apply, exp_tile]
  simp only [tile_apply]
  exact (attn_row x0 x1 x2 x5 (rowOf t p) j).symm

/-- The attention payload on a tile. -/
theorem attn_tile (hfin : ∀ r e, ∃ q : ℝ, val_main_v1 (F := Ideal) x0 x1 (ix2 r e) = (q : EReal)) (t : Fin 128) :
    k0_pay3 (F := Ideal) (tile x0 t) (val_main_v0 (F := Ideal) x1) (val_main_v26 (F := Ideal) x2 x5)
      = tile (val_main_v40 (F := Ideal) x0 x1 x2 x5) t := by
  rw [pay3_eq, query_tile, unit_tile x0 x1 hfin, sims_tile, softmax_tile]

/-- The context payload on a tile. -/
theorem ctx_tile (hfin : ∀ r e, ∃ q : ℝ, val_main_v1 (F := Ideal) x0 x1 (ix2 r e) = (q : EReal)) (t : Fin 128) :
    k0_pay1 (F := Ideal) (k0_pay5 (F := Ideal) (tile x0 t) (val_main_v0 (F := Ideal) x1) (val_main_v26 (F := Ideal) x2 x5))
        (val_main_v15 (F := Ideal) x3 x5)
      = tile (val_main_v41 (F := Ideal) x0 x1 x2 x3 x5) t := by
  have h5 : k0_pay5 (F := Ideal) (tile x0 t) (val_main_v0 (F := Ideal) x1) (val_main_v26 (F := Ideal) x2 x5)
      = tile (val_main_v40 (F := Ideal) x0 x1 x2 x5) t := (attn_tile x0 x1 x2 x5 hfin t)
  funext y
  obtain ⟨p, v, rfl⟩ : ∃ (p : Fin 256) (v : Fin 128), y = ix2 p v := ⟨y 0, y 1, eq_ix2 y⟩
  rw [h5, pay1_apply]
  simp only [tile_apply]
  exact (ctx_row x0 x1 x2 x3 x5 (rowOf t p) v).symm

/-- The partial-sum payload on a tile: at any of its eight rows, the sum of the attention over the tile's rows. -/
theorem partial_tile (hfin : ∀ r e, ∃ q : ℝ, val_main_v1 (F := Ideal) x0 x1 (ix2 r e) = (q : EReal)) (t : Fin 128) (s : Fin 8) (j : Fin 4096) :
    k0_pay4 (F := Ideal) (tile x0 t) (val_main_v0 (F := Ideal) x1) (val_main_v26 (F := Ideal) x2 x5) (ix2 s j)
      = ∑ p : Fin 256, val_main_v40 (F := Ideal) x0 x1 x2 x5 (ix2 (rowOf t p) j) := by
  rw [pay4_apply, attn_tile x0 x1 x2 x5 hfin]
  simp only [tile_apply]

end Cert.KernelIdeal.Tiles

end
-- ==== Proof.Arrays.lean ====
/-
  The arrays of the launch, read through the generated frame.

  At the region's entry the three resident operands hold the host prefix's results: the transposed weights, the transposed
  normalised gathered keys and the gathered values, each the same term as the reference's. Grid point `t` stages tile `t` of
  `hidden` (block index `(t, 0)`) and the three resident operands whole, and writes back tile `t` of the query, the attention
  and the context, and rows `8 t … 8 t + 7` of the partial sums. The output tiles tile their arrays, so each array ends as one
  function of the arguments: the reference's query, attention and context, and, for the partial sums, at row `ρ` and
  column `j` the sum of the attention's column `j` over the 256 rows of tile `ρ / 8`.
-/
import proofs.«104340_j33157147525657_2_alg».proof.Proof.Gen.KernelIdeal.Frame
import proofs.«104340_j33157147525657_2_alg».proof.Proof.Tiles
import Idealize.ShloMosaic.Lib.StableHlo.Run

set_option maxRecDepth 16384

noncomputable section

namespace Cert.KernelIdeal.Arrays

open Idealize.ShloMosaic Idealize.ShloMosaic.TcCoe Idealize.SL.Sem Idealize.ShloMosaic.ValueIdx Idealize.ShloMosaic.StableHlo
open Cert.KernelIdeal Cert.KernelIdeal.Gen Cert.KernelIdeal.Tiles Cert.ReferenceIdeal.Read
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-! ## The arguments and the resident operands at the region's entry -/

/-- `hidden` on core `c`. -/
abbrev a0 (c : Dev nD) : (⟨2, ![32768, 256]⟩ : Shape).Idx → EReal := m ((c : Thread nD τ).loc main_arg0)
/-- `key_weight` on core `c`. -/
abbrev a1 (c : Dev nD) : (⟨2, ![64, 256]⟩ : Shape).Idx → EReal := m ((c : Thread nD τ).loc main_arg1)
/-- `slots_key` on core `c`. -/
abbrev a2 (c : Dev nD) : (⟨2, ![8192, 64]⟩ : Shape).Idx → EReal := m ((c : Thread nD τ).loc main_arg2)
/-- `slots_value` on core `c`. -/
abbrev a3 (c : Dev nD) : (⟨2, ![8192, 128]⟩ : Shape).Idx → EReal := m ((c : Thread nD τ).loc main_arg3)
/-- `active_idx` on core `c`. -/
abbrev a5 (c : Dev nD) : (⟨1, ![4096]⟩ : Shape).Idx → BitVec 32 := m ((c : Thread nD τ).loc main_arg5)

/-- The transposed weights. -/
theorem V_weights (c : Dev nD) :
    (V m c main_v23 : S256x64.Idx → EReal) = val_main_v0 (F := Ideal) (a1 m c) := by
  dsimp only [V, V0]
  simp only [hostOps0, hostOps0_1, hostOps0_2, List.flatten_cons, List.flatten_nil, List.append_nil, List.cons_append, List.nil_append]
  after_results
  rfl

set_option maxHeartbeats 4000000 in
/-- The transposed normalised gathered keys. -/
theorem V_keys (c : Dev nD) :
    (V m c main_v20 : S64x4096.Idx → EReal) = val_main_v26 (F := Ideal) (a2 m c) (a5 m c) := by
  dsimp only [V, V0]
  simp only [hostOps0, hostOps0_1, hostOps0_2, List.flatten_cons, List.flatten_nil, List.append_nil, List.cons_append, List.nil_append]
  after_results_simp <;> rfl

set_option maxHeartbeats 4000000 in
/-- The gathered values. -/
theorem V_values (c : Dev nD) :
    (V m c main_v21 : S4096x128.Idx → EReal) = val_main_v15 (F := Ideal) (a3 m c) (a5 m c) := by
  dsimp only [V, V0]
  simp only [hostOps0, hostOps0_1, hostOps0_2, List.flatten_cons, List.flatten_nil, List.append_nil, List.cons_append, List.nil_append]
  after_results_simp <;> rfl

/-! ## The index maps over the grid -/

/-- The printed index maps, decided over the 128 grid points: the tiled windows sit at block `(t, 0)`, the resident ones
    at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A grid point as a tile number. -/
def tOf (t : Fin cfg0.N) : Fin 128 := ⟨t.val, by have h : cfg0.N = 128 := N_0; have := t.isLt; omega⟩

/-- A tile number as a grid point. -/
def ofT (t : Fin 128) : Fin cfg0.N := ⟨t.val, by have h : cfg0.N = 128 := N_0; have := t.isLt; omega⟩

/-! ## The staged blocks -/

/-- Point `t` stages tile `t` of `hidden`. -/
theorem iblk0_eq (c : Dev nD) (t : Fin cfg0.N) : iblk m c 0 t = tile (a0 m c) (tOf t) := by
  unfold iblk
  funext y
  show V m c main_arg0 (((cfg0.win 0).blk t).view.emb y) = _
  rw [V_main_arg0]
  obtain ⟨e0, e1, -⟩ := idx_facts t
  refine congrArg (m ((c : Thread nD τ).loc main_arg0)) (funext fun a => Fin.ext ?_)
  match a with
  | ⟨0, _⟩ => show win0_0.index t (0 : Fin 2) * 256 + 1 * (y 0).val = t.val * 256 + (y 0).val; rw [e0]; omega
  | ⟨1, _⟩ => show win0_0.index t (1 : Fin 2) * 256 + 1 * (y 1).val = (y 1).val; rw [e1]; omega

/-- Every point stages the transposed weights whole. -/
theorem iblk1_eq (c : Dev nD) (t : Fin cfg0.N) : iblk m c 1 t = val_main_v0 (F := Ideal) (a1 m c) := by
  unfold iblk
  funext y
  show V m c main_v23 (((cfg0.win 1).blk t).view.emb y) = _
  rw [← V_weights]
  obtain ⟨-, -, e0, e1, -⟩ := idx_facts t
  refine congrArg (V m c main_v23) (funext fun a => Fin.ext ?_)
  match a with
  | ⟨0, _⟩ => show win0_1.index t (0 : Fin 2) * 256 + 1 * (y 0).val = (y 0).val; rw [e0]; omega
  | ⟨1, _⟩ => show win0_1.index t (1 : Fin 2) * 64 + 1 * (y 1).val = (y 1).val; rw [e1]; omega

/-- Every point stages the keys whole. -/
theorem iblk2_eq (c : Dev nD) (t : Fin cfg0.N) : iblk m c 2 t = val_main_v26 (F := Ideal) (a2 m c) (a5 m c) := by
  unfold iblk
  funext y
  show V m c main_v20 (((cfg0.win 2).blk t).view.emb y) = _
  rw [← V_keys]
  obtain ⟨-, -, -, -, e0, e1, -⟩ := idx_facts t
  refine congrArg (V m c main_v20) (funext fun a => Fin.ext ?_)
  match a with
  | ⟨0, _⟩ => show win0_2.index t (0 : Fin 2) * 64 + 1 * (y 0).val = (y 0).val; rw [e0]; omega
  | ⟨1, _⟩ => show win0_2.index t (1 : Fin 2) * 4096 + 1 * (y 1).val = (y 1).val; rw [e1]; omega

/-- Every point stages the values whole. -/
theorem iblk3_eq (c : Dev nD) (t : Fin cfg0.N) : iblk m c 3 t = val_main_v15 (F := Ideal) (a3 m c) (a5 m c) := by
  unfold iblk
  funext y
  show V m c main_v21 (((cfg0.win 3).blk t).view.emb y) = _
  rw [← V_values]
  obtain ⟨-, -, -, -, -, -, e0, e1, -⟩ := idx_facts t
  refine congrArg (V m c main_v21) (funext fun a => Fin.ext ?_)
  match a with
  | ⟨0, _⟩ => show win0_3.index t (0 : Fin 2) * 4096 + 1 * (y 0).val = (y 0).val; rw [e0]; omega
  | ⟨1, _⟩ => show win0_3.index t (1 : Fin 2) * 128 + 1 * (y 1).val = (y 1).val; rw [e1]; omega

/-! ## Reading an array through an output window's block -/

/-- Block `t` of the query's window is tile `t`. -/
theorem read_blk4 (t : Fin cfg0.N) (G : (⟨2, ![32768, 64]⟩ : Shape).Idx → EReal) :
    ((cfg0.win 4).blk t).view.read (Elt Ideal) G = tile G (tOf t) := by
  funext y
  show G (((cfg0.win 4).blk t).view.emb y) = _
  obtain ⟨-, -, -, -, -, -, -, -, e0, e1, -⟩ := idx_facts t
  refine congrArg G (funext fun a => Fin.ext ?_)
  match a with
  | ⟨0, _⟩ => show win0_4.index t (0 : Fin 2) * 256 + 1 * (y 0).val = t.val * 256 + (y 0).val; rw [e0]; omega
  | ⟨1, _⟩ => show win0_4.index t (1 : Fin 2) * 64 + 1 * (y 1).val = (y 1).val; rw [e1]; omega

/-- Block `t` of the attention's window is tile `t`. -/
theorem read_blk5 (t : Fin cfg0.N) (G : (⟨2, ![32768, 4096]⟩ : Shape).Idx → EReal) :
    ((cfg0.win 5).blk t).view.read (Elt Ideal) G = tile G (tOf t) := by
  funext y
  show G (((cfg0.win 5).blk t).view.emb y) = _
  obtain ⟨-, -, -, -, -, -, -, -, -, -, e0, e1, -⟩ := idx_facts t
  refine congrArg G (funext fun a => Fin.ext ?_)
  match a with
  | ⟨0, _⟩ => show win0_5.index t (0 : Fin 2) * 256 + 1 * (y 0).val = t.val * 256 + (y 0).val; rw [e0]; omega
  | ⟨1, _⟩ => show win0_5.index t (1 : Fin 2) * 4096 + 1 * (y 1).val = (y 1).val; rw [e1]; omega

/-- Block `t` of the context's window is tile `t`. -/
theorem read_blk6 (t : Fin cfg0.N) (G : (⟨2, ![32768, 128]⟩ : Shape).Idx → EReal) :
    ((cfg0.win 6).blk t).view.read (Elt Ideal) G = tile G (tOf t) := by
  funext y
  show G (((cfg0.win 6).blk t).view.emb y) = _
  obtain ⟨-, -, -, -, -, -, -, -, -, -, -, -, e0, e1, -⟩ := idx_facts t
  refine congrArg G (funext fun a => Fin.ext ?_)
  match a with
  | ⟨0, _⟩ => show win0_6.index t (0 : Fin 2) * 256 + 1 * (y 0).val = t.val * 256 + (y 0).val; rw [e0]; omega
  | ⟨1, _⟩ => show win0_6.index t (1 : Fin 2) * 128 + 1 * (y 1).val = (y 1).val; rw [e1]; omega

/-- The partial sums: at row `ρ` and column `j`, the sum of an attention array's column `j` over the rows of tile `ρ / 8`. -/
def partialSums (A : (⟨2, ![32768, 4096]⟩ : Shape).Idx → EReal) : (⟨2, ![1024, 4096]⟩ : Shape).Idx → EReal :=
  fun i => ∑ p : Fin 256, A (ix2 (rowOf (⟨(i 0).val / 8, by have := idx2_lt0 i; omega⟩ : Fin 128) p) (⟨(i 1).val, idx2_lt1 i⟩ : Fin 4096))

/-! ## What each point writes back -/

/-- Every entry of the reference's query is a real number, on every core. -/
def RealQueries : Prop :=
  ∀ (c : Dev nD) (r : Fin 32768) (e : Fin 64), ∃ q : ℝ, val_main_v1 (F := Ideal) (a0 m c) (a1 m c) (ix2 r e) = (q : EReal)

/-- Point `t` writes back tile `t` of the reference's query. -/
theorem flushed4_eq (c : Dev nD) (t : Fin cfg0.N) :
    (dats m 0 c).flushed 4 t = ((cfg0.win 4).blk t).view.read (Elt Ideal) (val_main_v1 (F := Ideal) (a0 m c) (a1 m c)) := by
  show (cfg0.win 4).cut (grid0.coords t) ((dats m 0 c).after 4 t) = _
  rw [after0_4, read_blk4]
  unfold out0_4
  rw [View.canon_unit_zero hz]
  simp only [View.ld_unit_zero (S := S256x256) hz, View.ld_unit_zero (S := S256x64) hz]
  rw [iblk0_eq, iblk1_eq, query_tile]
  rfl

/-- Point `t` writes back tile `t` of the reference's attention. -/
theorem flushed5_eq (hfin : RealQueries m) (c : Dev nD) (t : Fin cfg0.N) :
    (dats m 0 c).flushed 5 t
      = ((cfg0.win 5).blk t).view.read (Elt Ideal) (val_main_v40 (F := Ideal) (a0 m c) (a1 m c) (a2 m c) (a5 m c)) := by
  show (cfg0.win 5).cut (grid0.coords t) ((dats m 0 c).after 5 t) = _
  rw [after0_5, read_blk5]
  unfold out0_5
  rw [View.canon_unit_zero hz]
  simp only [View.ld_unit_zero (S := S256x256) hz, View.ld_unit_zero (S := S256x64) hz, View.ld_unit_zero (S := S64x4096) hz]
  rw [iblk0_eq, iblk1_eq, iblk2_eq, attn_tile _ _ _ _ (hfin c)]
  rfl

/-- Point `t` writes back tile `t` of the reference's context. -/
theorem flushed6_eq (hfin : RealQueries m) (c : Dev nD) (t : Fin cfg0.N) :
    (dats m 0 c).flushed 6 t
      = ((cfg0.win 6).blk t).view.read (Elt Ideal) (val_main_v41 (F := Ideal) (a0 m c) (a1 m c) (a2 m c) (a3 m c) (a5 m c)) := by
  show (cfg0.win 6).cut (grid0.coords t) ((dats m 0 c).after 6 t) = _
  rw [after0_6, read_blk6]
  unfold out0_6
  rw [View.canon_unit_zero hz]
  simp only [View.ld_unit_zero (S := S256x256) hz, View.ld_unit_zero (S := S256x64) hz, View.ld_unit_zero (S := S64x4096) hz,
    View.ld_unit_zero (S := S4096x128) hz]
  rw [iblk0_eq, iblk1_eq, iblk2_eq, iblk3_eq, ctx_tile _ _ _ _ _ (hfin c)]
  rfl

/-- Point `t` writes back, on rows `8 t … 8 t + 7`, the column sums of the attention over tile `t`. -/
theorem flushed7_eq (hfin : RealQueries m) (c : Dev nD) (t : Fin cfg0.N) :
    (dats m 0 c).flushed 7 t
      = ((cfg0.win 7).blk t).view.read (Elt Ideal) (partialSums (val_main_v40 (F := Ideal) (a0 m c) (a1 m c) (a2 m c) (a5 m c))) := by
  show (cfg0.win 7).cut (grid0.coords t) ((dats m 0 c).after 7 t) = _
  rw [after0_7]
  unfold out0_7
  rw [View.canon_unit_zero hz]
  simp only [View.ld_unit_zero (S := S256x256) hz, View.ld_unit_zero (S := S256x64) hz, View.ld_unit_zero (S := S64x4096) hz]
  rw [iblk0_eq, iblk1_eq, iblk2_eq]
  obtain ⟨-, -, -, -, -, -, -, -, -, -, -, -, -, -, e0, e1⟩ := idx_facts t
  funext y
  obtain ⟨s, j, rfl⟩ : ∃ (s : Fin 8) (j : Fin 4096), y = ix2 s j := ⟨y 0, y 1, eq_ix2 y⟩
  show k0_pay4 (F := Ideal) (tile (a0 m c) (tOf t)) (val_main_v0 (F := Ideal) (a1 m c)) (val_main_v26 (F := Ideal) (a2 m c) (a5 m c)) (ix2 s j)
    = partialSums (val_main_v40 (F := Ideal) (a0 m c) (a1 m c) (a2 m c) (a5 m c)) (((cfg0.win 7).blk t).view.emb (ix2 s j))
  rw [partial_tile _ _ _ _ (hfin c)]
  generalize hzz : ((cfg0.win 7).blk t).view.emb (ix2 s j) = z
  have h0 : (z 0).val = t.val * 8 + s.val := by
    rw [← hzz]; show win0_7.index t (0 : Fin 2) * 8 + 1 * s.val = _; rw [e0]; omega
  have h1 : (z 1).val = j.val := by
    rw [← hzz]; show win0_7.index t (1 : Fin 2) * 4096 + 1 * j.val = _; rw [e1]; omega
  unfold partialSums
  refine Finset.sum_congr rfl fun p _ => congrArg _ (funext fun a => Fin.ext ?_)
  match a with
  | ⟨0, _⟩ => show t.val * 256 + p.val = (z 0).val / 8 * 256 + p.val; rw [h0]; omega
  | ⟨1, _⟩ => show j.val = (z 1).val; rw [h1]

/-! ## The blocks tile their arrays -/

theorem mem_blk4 (t : Fin cfg0.N) (i : S32768x64.Idx) :
    i ∈ ((cfg0.win 4).blk t).view.set ↔ ∀ a : Fin 2, win0_4.index t a * S256x64.size a ≤ (i a).val ∧ (i a).val < win0_4.index t a * S256x64.size a + S256x64.size a := by
  show i ∈ ((View.whole main_v24_0).slice (win0_4.rect t)).set ↔ _
  rw [View.set_slice_whole, Rect.mem_set_unit]
  exact Iff.rfl

theorem mem_blk5 (t : Fin cfg0.N) (i : S32768x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v24_1).slice (win0_5.rect t)).set ↔ _
  rw [View.set_slice_whole, Rect.mem_set_unit]
  exact Iff.rfl

theorem mem_blk6 (t : Fin cfg0.N) (i : S32768x128.Idx) :
    i ∈ ((cfg0.win 6).blk t).view.set ↔ ∀ a : Fin 2, win0_6.index t a * S256x128.size a ≤ (i a).val ∧ (i a).val < win0_6.index t a * S256x128.size a + S256x128.size a := by
  show i ∈ ((View.whole main_v24_2).slice (win0_6.rect t)).set ↔ _
  rw [View.set_slice_whole, Rect.mem_set_unit]
  exact Iff.rfl

theorem mem_blk7 (t : Fin cfg0.N) (i : S1024x4096.Idx) :
    i ∈ ((cfg0.win 7).blk t).view.set ↔ ∀ a : Fin 2, win0_7.index t a * S8x4096.size a ≤ (i a).val ∧ (i a).val < win0_7.index t a * S8x4096.size a + S8x4096.size a := by
  show i ∈ ((View.whole main_v24_3).slice (win0_7.rect t)).set ↔ _
  rw [View.set_slice_whole, Rect.mem_set_unit]
  exact Iff.rfl

/-- Row `r` of the query is in the block of point `r / 256`. -/
theorem cover4 (i : S32768x64.Idx) : ∃ t : Fin cfg0.N, (cfg0.win 4).flush t = true ∧ i ∈ ((cfg0.win 4).blk t).view.set := by
  have hi0 : (i 0).val < 32768 := (i 0).isLt
  have hi1 : (i 1).val < 64 := (i 1).isLt
  have hN : cfg0.N = 128 := N_0
  refine ⟨⟨(i 0).val / 256, by omega⟩, flush0_4 _, ?_⟩
  obtain ⟨-, -, -, -, -, -, -, -, e0, e1, -⟩ := idx_facts ⟨(i 0).val / 256, by omega⟩
  rw [mem_blk4]
  intro a
  match a with
  | ⟨0, _⟩ =>
    show win0_4.index _ (0 : Fin 2) * 256 ≤ (i 0).val ∧ (i 0).val < win0_4.index _ (0 : Fin 2) * 256 + 256
    rw [e0]; show (i 0).val / 256 * 256 ≤ (i 0).val ∧ (i 0).val < (i 0).val / 256 * 256 + 256; omega
  | ⟨1, _⟩ =>
    show win0_4.index _ (1 : Fin 2) * 64 ≤ (i 1).val ∧ (i 1).val < win0_4.index _ (1 : Fin 2) * 64 + 64
    rw [e1]; omega

/-- Row `r` of the attention is in the block of point `r / 256`. -/
theorem cover5 (i : S32768x4096.Idx) : ∃ t : Fin cfg0.N, (cfg0.win 5).flush t = true ∧ i ∈ ((cfg0.win 5).blk t).view.set := by
  have hi0 : (i 0).val < 32768 := (i 0).isLt
  have hi1 : (i 1).val < 4096 := (i 1).isLt
  have hN : cfg0.N = 128 := N_0
  refine ⟨⟨(i 0).val / 256, by omega⟩, flush0_5 _, ?_⟩
  obtain ⟨-, -, -, -, -, -, -, -, -, -, e0, e1, -⟩ := idx_facts ⟨(i 0).val / 256, by omega⟩
  rw [mem_blk5]
  intro a
  match a with
  | ⟨0, _⟩ =>
    show win0_5.index _ (0 : Fin 2) * 256 ≤ (i 0).val ∧ (i 0).val < win0_5.index _ (0 : Fin 2) * 256 + 256
    rw [e0]; show (i 0).val / 256 * 256 ≤ (i 0).val ∧ (i 0).val < (i 0).val / 256 * 256 + 256; omega
  | ⟨1, _⟩ =>
    show win0_5.index _ (1 : Fin 2) * 4096 ≤ (i 1).val ∧ (i 1).val < win0_5.index _ (1 : Fin 2) * 4096 + 4096
    rw [e1]; omega

/-- Row `r` of the context is in the block of point `r / 256`. -/
theorem cover6 (i : S32768x128.Idx) : ∃ t : Fin cfg0.N, (cfg0.win 6).flush t = true ∧ i ∈ ((cfg0.win 6).blk t).view.set := by
  have hi0 : (i 0).val < 32768 := (i 0).isLt
  have hi1 : (i 1).val < 128 := (i 1).isLt
  have hN : cfg0.N = 128 := N_0
  refine ⟨⟨(i 0).val / 256, by omega⟩, flush0_6 _, ?_⟩
  obtain ⟨-, -, -, -, -, -, -, -, -, -, -, -, e0, e1, -⟩ := idx_facts ⟨(i 0).val / 256, by omega⟩
  rw [mem_blk6]
  intro a
  match a with
  | ⟨0, _⟩ =>
    show win0_6.index _ (0 : Fin 2) * 256 ≤ (i 0).val ∧ (i 0).val < win0_6.index _ (0 : Fin 2) * 256 + 256
    rw [e0]; show (i 0).val / 256 * 256 ≤ (i 0).val ∧ (i 0).val < (i 0).val / 256 * 256 + 256; omega
  | ⟨1, _⟩ =>
    show win0_6.index _ (1 : Fin 2) * 128 ≤ (i 1).val ∧ (i 1).val < win0_6.index _ (1 : Fin 2) * 128 + 128
    rw [e1]; omega

/-- Row `ρ` of the partial sums is in the block of point `ρ / 8`. -/
theorem cover7 (i : S1024x4096.Idx) : ∃ t : Fin cfg0.N, (cfg0.win 7).flush t = true ∧ i ∈ ((cfg0.win 7).blk t).view.set := by
  have hi0 : (i 0).val < 1024 := (i 0).isLt
  have hi1 : (i 1).val < 4096 := (i 1).isLt
  have hN : cfg0.N = 128 := N_0
  refine ⟨⟨(i 0).val / 8, by omega⟩, flush0_7 _, ?_⟩
  obtain ⟨-, -, -, -, -, -, -, -, -, -, -, -, -, -, e0, e1⟩ := idx_facts ⟨(i 0).val / 8, by omega⟩
  rw [mem_blk7]
  intro a
  match a with
  | ⟨0, _⟩ =>
    show win0_7.index _ (0 : Fin 2) * 8 ≤ (i 0).val ∧ (i 0).val < win0_7.index _ (0 : Fin 2) * 8 + 8
    rw [e0]; show (i 0).val / 8 * 8 ≤ (i 0).val ∧ (i 0).val < (i 0).val / 8 * 8 + 8; omega
  | ⟨1, _⟩ =>
    show win0_7.index _ (1 : Fin 2) * 4096 ≤ (i 1).val ∧ (i 1).val < win0_7.index _ (1 : Fin 2) * 4096 + 4096
    rw [e1]; omega

/-! ## The output arrays after the region -/

/-- The query array ends as the reference's query. -/
theorem final4 (c : Dev nD) : (dats m 0 c).arrAt 4 cfg0.N = val_main_v1 (F := Ideal) (a0 m c) (a1 m c) :=
  (dats m 0 c).arrAt_eq_of_cover 4 _ (fun t _ => flushed4_eq m c t) cover4

/-- The attention array ends as the reference's attention. -/
theorem final5 (hfin : RealQueries m) (c : Dev nD) : (dats m 0 c).arrAt 5 cfg0.N = val_main_v40 (F := Ideal) (a0 m c) (a1 m c) (a2 m c) (a5 m c) :=
  (dats m 0 c).arrAt_eq_of_cover 5 _ (fun t _ => flushed5_eq m hfin c t) cover5

/-- The context array ends as the reference's context. -/
theorem final6 (hfin : RealQueries m) (c : Dev nD) : (dats m 0 c).arrAt 6 cfg0.N = val_main_v41 (F := Ideal) (a0 m c) (a1 m c) (a2 m c) (a3 m c) (a5 m c) :=
  (dats m 0 c).arrAt_eq_of_cover 6 _ (fun t _ => flushed6_eq m hfin c t) cover6

/-- The partial-sum array ends as the tile-wise column sums of the reference's attention. -/
theorem final7 (hfin : RealQueries m) (c : Dev nD) :
    (dats m 0 c).arrAt 7 cfg0.N = partialSums (val_main_v40 (F := Ideal) (a0 m c) (a1 m c) (a2 m c) (a5 m c)) :=
  (dats m 0 c).arrAt_eq_of_cover 7 _ (fun t _ => flushed7_eq m hfin c t) cover7

end Cert.KernelIdeal.Arrays

end
-- ==== Proof.Means.lean ====
/-
  The mean over all rows from the tile-wise partial sums.

  Let `A` be a column of 32768 entries and `R` a column of 1024 entries such that, for every tile `t < 128` and every
  `s < 8`, `R (8 t + s)` is the sum of `A` over the 256 rows of tile `t`. Then the sum of `R` is eight times the sum of `A`
  (sum `R` tile by tile: each tile contributes eight copies of its partial sum; and the partial sums over the 128 tiles add up
  to the whole sum), so `(∑ R) / 262144 = (∑ A) / 32768`.
-/
import proofs.«104340_j33157147525657_2_alg».proof.Proof.Laws

noncomputable section

namespace Cert.MemAttn

open Idealize.ShloMosaic

theorem mean_of_partials (A : Fin 32768 → EReal) (R : Fin 1024 → EReal)
    (hR : ∀ (t : Fin 128) (s : Fin 8) (h : t.val * 8 + s.val < 1024),
      R ⟨t.val * 8 + s.val, h⟩ = ∑ p : Fin 256, A ⟨t.val * 256 + p.val, by have := t.isLt; have := p.isLt; omega⟩) :
    Ideal.div (∑ row, R row) ((262144 : ℝ) : EReal) = Ideal.div (∑ k, A k) ((32768 : ℝ) : EReal) := by
  have h1 : ∑ row : Fin (128 * 8), R row
      = 8 • ∑ t : Fin 128, ∑ p : Fin 256, A ⟨t.val * 256 + p.val, by have := t.isLt; have := p.isLt; omega⟩ :=
    sum_replicated 128 8 R _ fun t s => by
      have hb : t.val * 8 + s.val < 1024 := by have := t.isLt; have := s.isLt; omega
      rw [← hR t s hb]
      exact congrArg R (Fin.ext (by rw [finProdFinEquiv_val]; show s.val + 8 * t.val = t.val * 8 + s.val; omega))
  have h2 : ∑ k : Fin (128 * 256), A k
      = ∑ t : Fin 128, ∑ p : Fin 256, A ⟨t.val * 256 + p.val, by have := t.isLt; have := p.isLt; omega⟩ := by
    rw [sum_tiles 128 256 A]
    refine Finset.sum_congr rfl fun t _ => Finset.sum_congr rfl fun p _ => ?_
    exact congrArg A (Fin.ext (by rw [finProdFinEquiv_val]; show p.val + 256 * t.val = t.val * 256 + p.val; omega))
  have e1 : ∑ row : Fin 1024, R row = ∑ row : Fin (128 * 8), R row := rfl
  have e2 : ∑ k : Fin 32768, A k = ∑ k : Fin (128 * 256), A k := rfl
  rw [e1, e2, h1, h2, mean_law]

end Cert.MemAttn

end
-- ==== Proof.Results.lean ====
/-
  The run of the idealized kernel's program with every result named.

  After the region the program sums the partial-sum array over its 1024 rows and divides by 262144. Each tile contributes
  eight copies of its partial sum, so this is the sum of the attention over all 32768 rows divided by 32768: the
  reference's mean. The remaining operations (gather the old usage, blend, scatter) are the reference's own, applied to that
  mean, so the fourth result is the reference's. The first three results are the region's output arrays.
-/
import proofs.«104340_j33157147525657_2_alg».proof.Proof.Arrays
import proofs.«104340_j33157147525657_2_alg».proof.Proof.Means

set_option maxRecDepth 16384

noncomputable section

namespace Cert.KernelIdeal.Results

open Idealize.ShloMosaic Idealize.ShloMosaic.TcCoe Idealize.SL.Sem Idealize.ShloMosaic.ValueIdx Idealize.ShloMosaic.StableHlo
open Cert.KernelIdeal Cert.KernelIdeal.Gen Cert.KernelIdeal.Tiles Cert.KernelIdeal.Arrays Cert.ReferenceIdeal.Read Cert.MemAttn

variable (m : (ℓ : Loc nD τ sig) → Buf (Elt Ideal) ℓ) (ρ : Dev nD → PrngReg)

/-- `usage_ema` on core `c`. -/
abbrev a4 (c : Dev nD) : (⟨1, ![8192]⟩ : Shape).Idx → EReal := m ((c : Thread nD τ).loc main_arg4)

/-- The host's sum of a `[1024, 4096]` array along its first axis from `0`, at column `j`. -/
theorem hostColSum (X : FVec Ideal S1024x4096 .f32) (j : Fin 4096) :
    Host.reduceAdd (F := Ideal) X (constant S_ .f32 0x00000000#32) reducesTo_S1024x4096_S4096_d0 h_S_ (ix1 j)
      = ∑ k : Fin 1024, X (ix2 k j) := by
  simp only [Host.reduceAdd, Ideal.hostReduceAdd_def]
  rw [Ideal.hostReduceAdd_single reducesTo_S1024x4096_S4096_d0 (by decide)]
  have z : (constant (F := Ideal) S_ .f32 0x00000000#32) (Shape.Idx.first h_S_) = (0 : EReal) := Ideal.ofBits_zero_f32
  rw [z, zero_add]
  exact Finset.sum_congr rfl fun k _ => congrArg X (funext fun a => Fin.ext (by match a with | ⟨0, _⟩ => rfl | ⟨1, _⟩ => rfl))

/-- The mean the kernel's program computes from the partial sums is the reference's mean. -/
theorem mean_eq (A : (⟨2, ![32768, 4096]⟩ : Shape).Idx → EReal) (j : Fin 4096) :
    Ideal.div (∑ k : Fin 1024, partialSums A (ix2 k j)) ((262144 : ℝ) : EReal)
      = Ideal.div (∑ k : Fin 32768, A (ix2 k j)) ((32768 : ℝ) : EReal) := by
  refine mean_of_partials (fun k => A (ix2 k j)) (fun row => partialSums A (ix2 row j)) fun t s h => ?_
  show partialSums A (ix2 (⟨t.val * 8 + s.val, h⟩ : Fin 1024) j) = _
  unfold partialSums
  refine Finset.sum_congr rfl fun p _ => congrArg A (funext fun a => Fin.ext ?_)
  match a with
  | ⟨0, _⟩ => show (t.val * 8 + s.val) / 8 * 256 + p.val = t.val * 256 + p.val; have := s.isLt; omega
  | ⟨1, _⟩ => rfl

/-- A scalar constant broadcast to `[4096]` reads its value at every index. -/
theorem bcast_const (b : BitVec 32) (j : Fin 4096) :
    broadcastInDim S4096 ![] bcast_S_S4096 (constant (F := Ideal) S_ .f32 b) (ix1 j) = Ideal.ofBits .f32 b :=
  (broadcastInDim_apply _ bcast_S_S4096 (constant (F := Ideal) S_ .f32 b) (ix1 j) ix0 (fun a => a.elim0)).trans rfl

/-- The mean array of the kernel's program is the reference's. -/
theorem mean_array (c : Dev nD) :
    Host.divf (F := Ideal)
        (Host.reduceAdd (F := Ideal) (partialSums (val_main_v40 (F := Ideal) (a0 m c) (a1 m c) (a2 m c) (a5 m c)))
          (constant S_ .f32 0x00000000#32) reducesTo_S1024x4096_S4096_d0 h_S_)
        (broadcastInDim S4096 ![] bcast_S_S4096 (constant (F := Ideal) S_ .f32 0x48800000#32))
      = val_main_v44 (F := Ideal) (a0 m c) (a1 m c) (a2 m c) (a5 m c) := by
  funext i
  obtain ⟨j, rfl⟩ : ∃ j : Fin 4096, i = ix1 j := ⟨i 0, eq_ix1 i⟩
  have hd : ∀ (x y : FVec Ideal S4096 .f32) (i : S4096.Idx), Host.divf (F := Ideal) x y i = Ideal.div (x i) (y i) := fun _ _ _ => rfl
  rw [Cert.ReferenceIdeal.Rows.mean_col, hd, hostColSum, bcast_const, ofBits_262144, mean_eq]

set_option maxHeartbeats 4000000 in
/-- The program's fourth result is the reference's: the same gather, blend and scatter, of the same mean. -/
theorem tail_eq (hfin : RealQueries m) (c : Dev nD) :
    Pipeline.afterTail₀ cfgs (dats m) 0 (V0 m) [hostOps1] c main_v46
      = val_main_v63 (F := Ideal) (a0 m c) (a1 m c) (a2 m c) (a4 m c) (a5 m c) := by
  unfold Pipeline.afterTail₀
  show StableHlo.after hostOps1 _ (Proc.devRef .tc main_v46) = _
  after_results_simp
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  have e7 : Pipeline.withArrays (cfgs 0).spec c (V0 m c) (fun w => (dats m 0 c).arrAt w (cfgs 0).N) (Proc.devRef .tc main_v24_3)
      = partialSums (val_main_v40 (F := Ideal) (a0 m c) (a1 m c) (a2 m c) (a5 m c)) :=
    (Pipeline.withArrays_arr spec0 launch0.win.arr_inj c _ _ 7).trans (final7 m hfin c)
  rw [e4, e5, e7, mean_array]
  rfl

/-- THE RUN: every weakly fair execution of the idealized kernel's program terminates with its four results at the
    reference's terms of the arguments, and the arguments unchanged. -/
theorem run (hfin : RealQueries m) :
    θ_run defs (onTc (τ := τ) (main (F := Ideal))) ⟨m, fun _ => 0, ρ⟩ fun r => ∀ c : Dev nD,
      r.2.mem ((c.tc : Thread nD τ).loc main_v24_2) = val_main_v41 (F := Ideal) (a0 m c) (a1 m c) (a2 m c) (a3 m c) (a5 m c)
      ∧ r.2.mem ((c.tc : Thread nD τ).loc main_v24_1) = val_main_v40 (F := Ideal) (a0 m c) (a1 m c) (a2 m c) (a5 m c)
      ∧ r.2.mem ((c.tc : Thread nD τ).loc main_v24_0) = val_main_v1 (F := Ideal) (a0 m c) (a1 m c)
      ∧ r.2.mem ((c.tc : Thread nD τ).loc main_v46) = val_main_v63 (F := Ideal) (a0 m c) (a1 m c) (a2 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m hfin c),
      ((h c).1 5).trans (final5 m hfin c),
      ((h c).1 4).trans (final4 m c),
      ((h c).2 main_v46 (Pipeline.mem_restRefs_of main_v46 (by decide) (by decide))).trans (tail_eq m hfin c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Results

end
-- ==== Proof.lean ====
/-
  A memory bank's cosine-similarity attention with an exponential-moving-average usage update: the tiled kernel against its
  reference, at the ideal values.

  Both programs compute, from `hidden` (32768 × 256), `key_weight` (64 × 256), the slot tables and the active indices:
  the query `q = hidden · key_weightᵀ`; the rows of `q` and of the gathered keys scaled to unit length (with a clamp `ε` on
  the norm); the similarities of unit queries and unit keys over the temperature; their soft-max along each row, the
  attention; the context, attention times gathered values; and the usage table with the active entries replaced by
  `0.95 · usage + 0.05 · mean`, the mean of the attention over the 32768 rows.

  The kernel works on tiles of 256 rows and differs from the reference in four places, each an identity on the extended
  reals. (1) It multiplies a query row by `rsqrt (max (q·q) ε²)` where the reference divides by `max (√(q·q)) ε`: equal for
  real rows, since `√` is monotone and `√(ε²) = ε`; here the clamp is named `ε²` for the reference's own `ε`, and the
  precondition (all float inputs finite) makes every query entry real. (2) It multiplies the similarities by a constant named
  the reciprocal of the reference's temperature, where the reference divides by the temperature. (3) The reference's
  soft-max takes one more maximum with `-∞`. (4) It leaves per tile the column sums of the attention, eight times over, and
  the program divides their total by `8 · 32768`, where the reference divides the total over all rows by `32768`.
  Rounding to a shorter float format on the way into each product is the identity at the ideal values.
-/
import proofs.«104340_j33157147525657_2_alg».proof.Defs
import proofs.«104340_j33157147525657_2_alg».proof.Proof.Gen.Kernel
import proofs.«104340_j33157147525657_2_alg».proof.Proof.Gen.Kernel.Skeleton
import proofs.«104340_j33157147525657_2_alg».proof.Proof.Gen.Kernel.Launch
import proofs.«104340_j33157147525657_2_alg».proof.Proof.Gen.Kernel.Points
import proofs.«104340_j33157147525657_2_alg».proof.Proof.Gen.Kernel.Frame
import proofs.«104340_j33157147525657_2_alg».proof.Proof.Gen.KernelIdeal
import proofs.«104340_j33157147525657_2_alg».proof.Proof.Gen.KernelIdeal.Skeleton
import proofs.«104340_j33157147525657_2_alg».proof.Proof.Gen.KernelIdeal.Launch
import proofs.«104340_j33157147525657_2_alg».proof.Proof.Gen.KernelIdeal.Points
import proofs.«104340_j33157147525657_2_alg».proof.Proof.Gen.KernelIdeal.Frame
import proofs.«104340_j33157147525657_2_alg».proof.Proof.Gen.ReferenceIdeal
import proofs.«104340_j33157147525657_2_alg».proof.Proof.Gen.Pre_finite_inputs
import proofs.«104340_j33157147525657_2_alg».proof.Proof.Gen.ReferenceIdeal.Run
import proofs.«104340_j33157147525657_2_alg».proof.Proof.Gen.ReferenceIdeal.Read
import proofs.«104340_j33157147525657_2_alg».proof.Proof.Finite
import proofs.«104340_j33157147525657_2_alg».proof.Proof.Results
import Idealize.ShloMosaic.Adequacy
import Idealize.ShloMosaic.Init

noncomputable section

namespace Cert.Proof

open Idealize.ShloMosaic Idealize.SL.Sem

/-- The kernel's program, as printed, runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The two constants the idealization names: the table gives the clamp the square of the reference's `ε` and the scale
    the reciprocal of the reference's temperature, and each printed constant is that value at the ideal values. -/
theorem preserves : Cert.preserves_Kernel_KernelIdeal :=
  ⟨IdealRules.named_const.statement Cert.KernelIdeal.κ "eps_sq" .f32 0x179ABE15#32 _ rfl,
   IdealRules.named_const.statement Cert.KernelIdeal.κ "inv_temp" .f32 0x41200000#32 _ rfl⟩

/-- Under the precondition every entry of the query is a real number: a finite sum of products of reals. -/
theorem real_queries (m : (ℓ : Loc Cert.KernelIdeal.nD Cert.KernelIdeal.τ Cert.KernelIdeal.sig) → Buf (Elt Ideal) ℓ)
    (hpre : Cert.Pre_KernelIdeal m) : Cert.KernelIdeal.Arrays.RealQueries m := fun c r e => by
  obtain ⟨h0, h1⟩ := Cert.MemAttn.finite_of_pre _ _ _ _ _ _ (hpre c)
  exact Cert.ReferenceIdeal.Rows.query_real _ _ h0 h1 r e

/-- From memories that agree on the arguments the two idealized programs end with the same four results: the kernel's run
    ends at the reference's terms of the kernel's arguments, the reference's at those terms of its own. -/
theorem algebraic : Cert.algebraic_KernelIdeal_ReferenceIdeal := by
  intro m ρ m' ρ' hpre hagree
  refine ⟨_, _, _, _, Cert.KernelIdeal.Results.run m ρ (real_queries m hpre), ?_⟩
  refine (θ_run Cert.ReferenceIdeal.defs _ _).mono (fun _ h c => ?_) (Cert.ReferenceIdeal.Value.run (F := Ideal) m' ρ')
  obtain ⟨g0, g1, g2, g3, g4, g5⟩ := hagree c
  obtain ⟨r0, r1, r2, r3, rest⟩ := h c
  refine ⟨r0.trans ?_, r1.trans ?_, r2.trans ?_, r3.trans ?_, rest⟩
  · rw [Cert.ReferenceIdeal.Read.val_main_v41_eq, g0, g1, g2, g3, g5]
  · rw [Cert.ReferenceIdeal.Read.val_main_v40_eq, g0, g1, g2, g5]
  · rw [Cert.ReferenceIdeal.Read.val_main_v1_eq, g0, g1]
  · rw [Cert.ReferenceIdeal.Read.val_main_v63_eq, g0, g1, g2, g4, g5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
